-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x7680x768 : Shape := ⟨3, ![8, 7680, 768]⟩
abbrev S8x2560x4 : Shape := ⟨3, ![8, 2560, 4]⟩
abbrev S_ : Shape := ⟨0, ![]⟩

class Facts : Prop where
  bcast_S_S8x7680x768 : S_.BroadcastsInDim S8x7680x768 (![] : Fin 0 → Fin S8x7680x768.rank)
  reducesTo_S8x7680x768_S_d0_1_2 : S8x7680x768.ReducesTo [0, 1, 2] S_
  h_S_ : 0 < S_.numel

variable [Facts]

def fn {F : FTy → Type} [FloatOps F] (main_arg0 : FVec F S8x7680x768 .f32) (main_arg1 : IVec S8x2560x4 32) : IVec S_ 1 :=
  let main_v0 : FVec F S8x7680x768 .f32 := Host.absf main_arg0
  let main_cst : FVec F S_ .f32 := constant S_ .f32 0x7F800000#32
  let main_v1 : FVec F S8x7680x768 .f32 := broadcastInDim S8x7680x768 ![] bcast_S_S8x7680x768 main_cst
  let main_v2 : IVec S8x7680x768 1 := cmpf .olt main_v0 main_v1
  let main_c : IVec S_ 1 := constantI S_ 1 1#1
  let main_v3 : IVec S_ 1 := (fun x v => Host.reduce IntOp.andi x v reducesTo_S8x7680x768_S_d0_1_2 h_S_) main_v2 main_c
  main_v3
-- ==== Kernel.lean ====
abbrev S8x7680x768 : Shape := ⟨3, ![8, 7680, 768]⟩
abbrev S8x2560x4 : Shape := ⟨3, ![8, 2560, 4]⟩
abbrev S8x2560x1 : Shape := ⟨3, ![8, 2560, 1]⟩
abbrev S8x2560 : Shape := ⟨2, ![8, 2560]⟩
abbrev S2 : Shape := ⟨1, ![2]⟩
abbrev S2x2 : Shape := ⟨2, ![2, 2]⟩
abbrev S4 : Shape := ⟨1, ![4]⟩
abbrev S1x1x4 : Shape := ⟨3, ![1, 1, 4]⟩
abbrev S_ : Shape := ⟨0, ![]⟩
abbrev S2560 : Shape := ⟨1, ![2560]⟩
abbrev S1x2560x1 : Shape := ⟨3, ![1, 2560, 1]⟩
abbrev S8 : Shape := ⟨1, ![8]⟩
abbrev S8x1x1 : Shape := ⟨3, ![8, 1, 1]⟩
abbrev S8x4097 : Shape := ⟨2, ![8, 4097]⟩
abbrev S8x2560x4x1 : Shape := ⟨4, ![8, 2560, 4, 1]⟩
abbrev S8x2560x4x2 : Shape := ⟨4, ![8, 2560, 4, 2]⟩
abbrev S8x4096 : Shape := ⟨2, ![8, 4096]⟩
abbrev S8x1x4096 : Shape := ⟨3, ![8, 1, 4096]⟩
abbrev S8x2560x2304 : Shape := ⟨3, ![8, 2560, 2304]⟩
abbrev S8x4096x2304 : Shape := ⟨3, ![8, 4096, 2304]⟩
abbrev S1x512x2304 : Shape := ⟨3, ![1, 512, 2304]⟩
abbrev S1x1x1024 : Shape := ⟨3, ![1, 1, 1024]⟩
abbrev S1x1024x2304 : Shape := ⟨3, ![1, 1024, 2304]⟩
abbrev S1024x2304 : Shape := ⟨2, ![1024, 2304]⟩
abbrev S512x2304 : Shape := ⟨2, ![512, 2304]⟩
abbrev S1024 : Shape := ⟨1, ![1024]⟩
abbrev S1x512 : Shape := ⟨2, ![1, 512]⟩
abbrev S1024x1 : Shape := ⟨2, ![1024, 1]⟩
abbrev S1024x512 : Shape := ⟨2, ![1024, 512]⟩
abbrev S8x32x32x4x3x768 : Shape := ⟨6, ![8, 32, 32, 4, 3, 768]⟩

abbrev nBuf : Space → Nat
  | .hbm => 82
  | .vmem => 7
  | .smem => 0
  | _ => 0

abbrev bufTy : (tb : Table) → Fin (tcTables nBuf tb) → BufTy
  | .hbm, ⟨0, _⟩ => ⟨S8x7680x768, .f32⟩
  | .hbm, ⟨1, _⟩ => ⟨S8x2560x4, .i32⟩
  | .hbm, ⟨2, _⟩ => ⟨S8x2560x1, .i32⟩
  | .hbm, ⟨3, _⟩ => ⟨S8x2560, .i32⟩
  | .hbm, ⟨4, _⟩ => ⟨S8x2560x1, .i32⟩
  | .hbm, ⟨5, _⟩ => ⟨S8x2560, .i32⟩
  | .hbm, ⟨6, _⟩ => ⟨S8x2560x1, .i32⟩
  | .hbm, ⟨7, _⟩ => ⟨S8x2560, .i32⟩
  | .hbm, ⟨8, _⟩ => ⟨S8x2560x1, .i32⟩
  | .hbm, ⟨9, _⟩ => ⟨S8x2560, .i32⟩
  | .hbm, ⟨10, _⟩ => ⟨S2, .i32⟩
  | .hbm, ⟨11, _⟩ => ⟨S2, .i32⟩
  | .hbm, ⟨12, _⟩ => ⟨S2x2, .i32⟩
  | .hbm, ⟨13, _⟩ => ⟨S2x2, .i32⟩
  | .hbm, ⟨14, _⟩ => ⟨S4, .i32⟩
  | .hbm, ⟨15, _⟩ => ⟨S4, .i32⟩
  | .hbm, ⟨16, _⟩ => ⟨S8x2560x1, .i32⟩
  | .hbm, ⟨17, _⟩ => ⟨S1x1x4, .i32⟩
  | .hbm, ⟨18, _⟩ => ⟨S8x2560x4, .i32⟩
  | .hbm, ⟨19, _⟩ => ⟨S8x2560x4, .i32⟩
  | .hbm, ⟨20, _⟩ => ⟨S8x2560x4, .i32⟩
  | .hbm, ⟨21, _⟩ => ⟨S8x2560x1, .i32⟩
  | .hbm, ⟨22, _⟩ => ⟨S1x1x4, .i32⟩
  | .hbm, ⟨23, _⟩ => ⟨S8x2560x4, .i32⟩
  | .hbm, ⟨24, _⟩ => ⟨S8x2560x4, .i32⟩
  | .hbm, ⟨25, _⟩ => ⟨S8x2560x4, .i32⟩
  | .hbm, ⟨26, _⟩ => ⟨S1x1x4, .i32⟩
  | .hbm, ⟨27, _⟩ => ⟨S8x2560x1, .i32⟩
  | .hbm, ⟨28, _⟩ => ⟨S8x2560x4, .i32⟩
  | .hbm, ⟨29, _⟩ => ⟨S8x2560x4, .i32⟩
  | .hbm, ⟨30, _⟩ => ⟨S8x2560x4, .i1⟩
  | .hbm, ⟨31, _⟩ => ⟨S1x1x4, .i32⟩
  | .hbm, ⟨32, _⟩ => ⟨S8x2560x1, .i32⟩
  | .hbm, ⟨33, _⟩ => ⟨S8x2560x4, .i32⟩
  | .hbm, ⟨34, _⟩ => ⟨S8x2560x4, .i32⟩
  | .hbm, ⟨35, _⟩ => ⟨S8x2560x4, .i1⟩
  | .hbm, ⟨36, _⟩ => ⟨S8x2560x4, .i1⟩
  | .hbm, ⟨37, _⟩ => ⟨S_, .i32⟩
  | .hbm, ⟨38, _⟩ => ⟨S8x2560x4, .i32⟩
  | .hbm, ⟨39, _⟩ => ⟨S8x2560x4, .i32⟩
  | .hbm, ⟨40, _⟩ => ⟨S8x2560x4, .i32⟩
  | .hbm, ⟨41, _⟩ => ⟨S_, .i32⟩
  | .hbm, ⟨42, _⟩ => ⟨S8x2560x4, .i32⟩
  | .hbm, ⟨43, _⟩ => ⟨S8x2560x4, .i32⟩
  | .hbm, ⟨44, _⟩ => ⟨S8x2560x1, .i32⟩
  | .hbm, ⟨45, _⟩ => ⟨S8x2560x4, .i32⟩
  | .hbm, ⟨46, _⟩ => ⟨S8x2560x4, .i32⟩
  | .hbm, ⟨47, _⟩ => ⟨S_, .i32⟩
  | .hbm, ⟨48, _⟩ => ⟨S_, .i32⟩
  | .hbm, ⟨49, _⟩ => ⟨S8x2560x4, .i32⟩
  | .hbm, ⟨50, _⟩ => ⟨S8x2560x4, .i32⟩
  | .hbm, ⟨51, _⟩ => ⟨S2560, .i32⟩
  | .hbm, ⟨52, _⟩ => ⟨S1x2560x1, .i32⟩
  | .hbm, ⟨53, _⟩ => ⟨S8x2560x4, .i32⟩
  | .hbm, ⟨54, _⟩ => ⟨S8, .i32⟩
  | .hbm, ⟨55, _⟩ => ⟨S8x1x1, .i32⟩
  | .hbm, ⟨56, _⟩ => ⟨S8x2560x4, .i32⟩
  | .hbm, ⟨57, _⟩ => ⟨S_, .i32⟩
  | .hbm, ⟨58, _⟩ => ⟨S8x4097, .i32⟩
  | .hbm, ⟨59, _⟩ => ⟨S_, .i32⟩
  | .hbm, ⟨60, _⟩ => ⟨S8x2560x4, .i32⟩
  | .hbm, ⟨61, _⟩ => ⟨S8x2560x4, .i1⟩
  | .hbm, ⟨62, _⟩ => ⟨S_, .i32⟩
  | .hbm, ⟨63, _⟩ => ⟨S8x2560x4, .i32⟩
  | .hbm, ⟨64, _⟩ => ⟨S8x2560x4, .i32⟩
  | .hbm, ⟨65, _⟩ => ⟨S8x2560x4, .i32⟩
  | .hbm, ⟨66, _⟩ => ⟨S_, .i32⟩
  | .hbm, ⟨67, _⟩ => ⟨S8x2560x4, .i32⟩
  | .hbm, ⟨68, _⟩ => ⟨S8x2560x4, .i1⟩
  | .hbm, ⟨69, _⟩ => ⟨S_, .i32⟩
  | .hbm, ⟨70, _⟩ => ⟨S8x2560x4, .i32⟩
  | .hbm, ⟨71, _⟩ => ⟨S8x2560x4, .i32⟩
  | .hbm, ⟨72, _⟩ => ⟨S8x2560x4, .i32⟩
  | .hbm, ⟨73, _⟩ => ⟨S8x2560x4x1, .i32⟩
  | .hbm, ⟨74, _⟩ => ⟨S8x2560x4x1, .i32⟩
  | .hbm, ⟨75, _⟩ => ⟨S8x2560x4x2, .i32⟩
  | .hbm, ⟨76, _⟩ => ⟨S8x4097, .i32⟩
  | .hbm, ⟨77, _⟩ => ⟨S8x4096, .i32⟩
  | .hbm, ⟨78, _⟩ => ⟨S8x1x4096, .i32⟩
  | .hbm, ⟨79, _⟩ => ⟨S8x2560x2304, .f32⟩
  | .hbm, ⟨80, _⟩ => ⟨S8x4096x2304, .f32⟩
  | .hbm, ⟨81, _⟩ => ⟨S8x32x32x4x3x768, .f32⟩
  | .local _ .vmem, ⟨0, _⟩ => ⟨S1x512x2304, .f32⟩
  | .local _ .vmem, ⟨1, _⟩ => ⟨S1x512x2304, .f32⟩
  | .local _ .vmem, ⟨2, _⟩ => ⟨S1x1x1024, .i32⟩
  | .local _ .vmem, ⟨3, _⟩ => ⟨S1x1x1024, .i32⟩
  | .local _ .vmem, ⟨4, _⟩ => ⟨S1x1024x2304, .f32⟩
  | .local _ .vmem, ⟨5, _⟩ => ⟨S1x1024x2304, .f32⟩
  | .local _ .vmem, ⟨6, _⟩ => ⟨S1024x2304, .f32⟩
  | _, _ => ⟨S8x7680x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_c : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_c_0 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_c_1 : Ref sig .tc := ⟨.hbm, 47, rfl⟩
abbrev main_call0_v0 : Ref sig .tc := ⟨.hbm, 48, rfl⟩
abbrev main_call0_v1 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_c_2 : Ref sig .tc := ⟨.hbm, 57, rfl⟩
abbrev main_v50 : Ref sig .tc := ⟨.hbm, 58, rfl⟩
abbrev main_c_3 : Ref sig .tc := ⟨.hbm, 59, rfl⟩
abbrev main_v51 : Ref sig .tc := ⟨.hbm, 60, rfl⟩
abbrev main_v52 : Ref sig .tc := ⟨.hbm, 61, rfl⟩
abbrev main_c_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c_5 : Ref sig .tc := ⟨.hbm, 66, rfl⟩
abbrev main_v56 : Ref sig .tc := ⟨.hbm, 67, rfl⟩
abbrev main_v57 : Ref sig .tc := ⟨.hbm, 68, rfl⟩
abbrev main_c_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 5], ![false, false, false]⟩

def k0_cond2 (i : grid0.Coords) : BitVec 1 :=
  let arg2 : BitVec 32 := BitVec.ofNat 32 (i 2).val
  let c4_i32 : BitVec 32 := 4#32
  let v25 : BitVec 1 := Scalar.cmpi .eq arg2 c4_i32
  let v26 : BitVec 32 := Scalar.extui v25
  let c0_i32_10 : BitVec 32 := 0#32
  let v27 : BitVec 1 := Scalar.cmpi .ne v26 c0_i32_10
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S8x2560x4_S8x2560x1_0_0_0 : S8x2560x4.Slices ![0, 0, 0] S8x2560x1
  shapeCasts_S8x2560x1_S8x2560 : S8x2560x1.ShapeCasts S8x2560
  slices_S8x2560x4_S8x2560x1_0_0_1 : S8x2560x4.Slices ![0, 0, 1] S8x2560x1
  slices_S8x2560x4_S8x2560x1_0_0_2 : S8x2560x4.Slices ![0, 0, 2] S8x2560x1
  slices_S8x2560x4_S8x2560x1_0_0_3 : S8x2560x4.Slices ![0, 0, 3] S8x2560x1
  bcast_S2_S2x2_0 : S2.BroadcastsInDim S2x2 (![0] : Fin 1 → Fin S2x2.rank)
  bcast_S2_S2x2_1 : S2.BroadcastsInDim S2x2 (![1] : Fin 1 → Fin S2x2.rank)
  shapeCasts_S2x2_S4 : S2x2.ShapeCasts S4
  bcast_S8x2560_S8x2560x1_0_1 : S8x2560.BroadcastsInDim S8x2560x1 (![0, 1] : Fin 2 → Fin S8x2560x1.rank)
  bcast_S4_S1x1x4_2 : S4.BroadcastsInDim S1x1x4 (![2] : Fin 1 → Fin S1x1x4.rank)
  bcast_S8x2560x1_S8x2560x4_0_1_2 : S8x2560x1.BroadcastsInDim S8x2560x4 (![0, 1, 2] : Fin 3 → Fin S8x2560x4.rank)
  bcast_S1x1x4_S8x2560x4_0_1_2 : S1x1x4.BroadcastsInDim S8x2560x4 (![0, 1, 2] : Fin 3 → Fin S8x2560x4.rank)
  bcast_S_S8x2560x4 : S_.BroadcastsInDim S8x2560x4 (![] : Fin 0 → Fin S8x2560x4.rank)
  bcast_S2560_S1x2560x1_1 : S2560.BroadcastsInDim S1x2560x1 (![1] : Fin 1 → Fin S1x2560x1.rank)
  bcast_S1x2560x1_S8x2560x4_0_1_2 : S1x2560x1.BroadcastsInDim S8x2560x4 (![0, 1, 2] : Fin 3 → Fin S8x2560x4.rank)
  bcast_S8_S8x1x1_0 : S8.BroadcastsInDim S8x1x1 (![0] : Fin 1 → Fin S8x1x1.rank)
  bcast_S8x1x1_S8x2560x4_0_1_2 : S8x1x1.BroadcastsInDim S8x2560x4 (![0, 1, 2] : Fin 3 → Fin S8x2560x4.rank)
  bcast_S_S8x4097 : S_.BroadcastsInDim S8x4097 (![] : Fin 0 → Fin S8x4097.rank)
  bcast_S8x2560x4_S8x2560x4x1_0_1_2 : S8x2560x4.BroadcastsInDim S8x2560x4x1 (![0, 1, 2] : Fin 3 → Fin S8x2560x4x1.rank)
  concatenates_S8x2560x4x1_S8x2560x4x1_S8x2560x4x2_d3 : Shape.Concatenates [S8x2560x4x1, S8x2560x4x1] S8x2560x4x2 3
  slices_S8x4097_S8x4096_0_0 : S8x4097.Slices ![0, 0] S8x4096
  shapeCasts_S8x4096_S8x1x4096 : S8x4096.ShapeCasts S8x1x4096
  shapeCasts_S8x7680x768_S8x2560x2304 : S8x7680x768.ShapeCasts S8x2560x2304
  inb_S1024x2304_S1024x2304_0_0 : ∀ a, (![0, 0] : Fin 2 → Nat) a + S1024x2304.size a ≤ S1024x2304.size a
  h_S1024x2304 : 0 < S1024x2304.numel
  shapeCasts_S1024x2304_S1024x2304 : S1024x2304.ShapeCasts S1024x2304
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S1x512_d1_w32 : S1x512.Iotas .tc 32 [1]
  shapeCasts_S1024_S1024x1 : S1024.ShapeCasts S1024x1
  broadcasts_S1024x1_S1024x512 : S1024x1.Broadcasts S1024x512
  broadcasts_S1x512_S1024x512 : S1x512.Broadcasts S1024x512
  natLt_1_32 : 1 < 32
  inb_S1x1024x2304_S1x1024x2304_0_0_0 : ∀ a, (![0, 0, 0] : Fin 3 → Nat) a + S1x1024x2304.size a ≤ S1x1024x2304.size a
  h_S1x1024x2304 : 0 < S1x1024x2304.numel
  shapeCasts_S1x1024x2304_S1024x2304 : S1x1024x2304.ShapeCasts S1024x2304
  shapeCasts_S1024x2304_S1x1024x2304 : S1024x2304.ShapeCasts S1x1024x2304
  shapeCasts_S8x4096x2304_S8x32x32x4x3x768 : S8x4096x2304.ShapeCasts S8x32x32x4x3x768
  scatter_S8x4097_S8x2560x4x2_S8x2560x4_n_01_01_3_wf : ScatterDims.WF S8x4097 S8x2560x4x2 S8x2560x4 [] [0, 1] [0, 1] 3
  dot_S1024x512_S512x2304_S1024x2304_1_0_0_1_n_n_wf : DotDims.WF S1024x512 S512x2304 S1024x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2304.size a ≤ S8x2560x2304.size a
  hwx0_0 : ∀ i : grid0.Coords, EltTy.bits .f32 = 32 ∨ (Rect.block (s := S8x2560x2304) S1x512x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x4096.size a
  hwx0_1 : ∀ i : grid0.Coords, EltTy.bits .i32 = 32 ∨ (Rect.block (s := S8x1x4096) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2304.size a ≤ S8x4096x2304.size a
  hwx0_2 : ∀ i : grid0.Coords, EltTy.bits .f32 = 32 ∨ (Rect.block (s := S8x4096x2304) S1x1024x2304.size (cc0_transform_2 i) (hinb0_2 i)).WholeWords (EltTy.packing .f32)

variable [Facts₀]

def scatter_S8x4097_S8x2560x4x2_S8x2560x4_n_01_01_3 : ScatterDims S8x4097 S8x2560x4x2 S8x2560x4 where
  updateWindowDims := []
  insertedWindowDims := [0, 1]
  scatterDimsToOperandDims := [0, 1]
  indexVectorDim := 3
  wf := scatter_S8x4097_S8x2560x4x2_S8x2560x4_n_01_01_3_wf
def dot_S1024x512_S512x2304_S1024x2304_1_0_0_1_n_n : DotDims S1024x512 S512x2304 S1024x2304 where
  lhsContracting := [1]
  rhsContracting := [0]
  lhsNonContracting := [0]
  rhsNonContracting := [1]
  lhsBatch := []
  rhsBatch := []
  wf := dot_S1024x512_S512x2304_S1024x2304_1_0_0_1_n_n_wf

abbrev win0_0 : Pipeline.Window sig grid0 :=
  Pipeline.Window.ofSpec (Memref.whole main_v67) S1x512x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x7680x768 : Shape := ⟨3, ![8, 7680, 768]⟩
abbrev S8x2560x4 : Shape := ⟨3, ![8, 2560, 4]⟩
abbrev S8x2560x1 : Shape := ⟨3, ![8, 2560, 1]⟩
abbrev S8x2560 : Shape := ⟨2, ![8, 2560]⟩
abbrev S2 : Shape := ⟨1, ![2]⟩
abbrev S2x2 : Shape := ⟨2, ![2, 2]⟩
abbrev S4 : Shape := ⟨1, ![4]⟩
abbrev S1x1x4 : Shape := ⟨3, ![1, 1, 4]⟩
abbrev S_ : Shape := ⟨0, ![]⟩
abbrev S2560 : Shape := ⟨1, ![2560]⟩
abbrev S1x2560x1 : Shape := ⟨3, ![1, 2560, 1]⟩
abbrev S8 : Shape := ⟨1, ![8]⟩
abbrev S8x1x1 : Shape := ⟨3, ![8, 1, 1]⟩
abbrev S8x4097 : Shape := ⟨2, ![8, 4097]⟩
abbrev S8x2560x4x1 : Shape := ⟨4, ![8, 2560, 4, 1]⟩
abbrev S8x2560x4x2 : Shape := ⟨4, ![8, 2560, 4, 2]⟩
abbrev S8x4096 : Shape := ⟨2, ![8, 4096]⟩
abbrev S8x32x32x4 : Shape := ⟨4, ![8, 32, 32, 4]⟩
abbrev S8x2560x3x768 : Shape := ⟨4, ![8, 2560, 3, 768]⟩
abbrev S8x32x32x4x1 : Shape := ⟨5, ![8, 32, 32, 4, 1]⟩
abbrev S8x32x32x4x3x768 : Shape := ⟨6, ![8, 32, 32, 4, 3, 768]⟩
abbrev S8x32x32x4x1x1 : Shape := ⟨6, ![8, 32, 32, 4, 1, 1]⟩
abbrev S32x32x4x3x768 : Shape := ⟨5, ![32, 32, 4, 3, 768]⟩

abbrev nBuf : Space → Nat
  | .hbm => 101
  | .vmem => 0
  | .smem => 0
  | _ => 0

abbrev bufTy : (tb : Table) → Fin (tcTables nBuf tb) → BufTy
  | .hbm, ⟨0, _⟩ => ⟨S8x7680x768, .f32⟩
  | .hbm, ⟨1, _⟩ => ⟨S8x2560x4, .i32⟩
  | .hbm, ⟨2, _⟩ => ⟨S8x2560x1, .i32⟩
  | .hbm, ⟨3, _⟩ => ⟨S8x2560, .i32⟩
  | .hbm, ⟨4, _⟩ => ⟨S8x2560x1, .i32⟩
  | .hbm, ⟨5, _⟩ => ⟨S8x2560, .i32⟩
  | .hbm, ⟨6, _⟩ => ⟨S8x2560x1, .i32⟩
  | .hbm, ⟨7, _⟩ => ⟨S8x2560, .i32⟩
  | .hbm, ⟨8, _⟩ => ⟨S8x2560x1, .i32⟩
  | .hbm, ⟨9, _⟩ => ⟨S8x2560, .i32⟩
  | .hbm, ⟨10, _⟩ => ⟨S2, .i32⟩
  | .hbm, ⟨11, _⟩ => ⟨S2, .i32⟩
  | .hbm, ⟨12, _⟩ => ⟨S2x2, .i32⟩
  | .hbm, ⟨13, _⟩ => ⟨S2x2, .i32⟩
  | .hbm, ⟨14, _⟩ => ⟨S4, .i32⟩
  | .hbm, ⟨15, _⟩ => ⟨S4, .i32⟩
  | .hbm, ⟨16, _⟩ => ⟨S8x2560x1, .i32⟩
  | .hbm, ⟨17, _⟩ => ⟨S1x1x4, .i32⟩
  | .hbm, ⟨18, _⟩ => ⟨S8x2560x4, .i32⟩
  | .hbm, ⟨19, _⟩ => ⟨S8x2560x4, .i32⟩
  | .hbm, ⟨20, _⟩ => ⟨S8x2560x4, .i32⟩
  | .hbm, ⟨21, _⟩ => ⟨S8x2560x1, .i32⟩
  | .hbm, ⟨22, _⟩ => ⟨S1x1x4, .i32⟩
  | .hbm, ⟨23, _⟩ => ⟨S8x2560x4, .i32⟩
  | .hbm, ⟨24, _⟩ => ⟨S8x2560x4, .i32⟩
  | .hbm, ⟨25, _⟩ => ⟨S8x2560x4, .i32⟩
  | .hbm, ⟨26, _⟩ => ⟨S1x1x4, .i32⟩
  | .hbm, ⟨27, _⟩ => ⟨S8x2560x1, .i32⟩
  | .hbm, ⟨28, _⟩ => ⟨S8x2560x4, .i32⟩
  | .hbm, ⟨29, _⟩ => ⟨S8x2560x4, .i32⟩
  | .hbm, ⟨30, _⟩ => ⟨S8x2560x4, .i1⟩
  | .hbm, ⟨31, _⟩ => ⟨S1x1x4, .i32⟩
  | .hbm, ⟨32, _⟩ => ⟨S8x2560x1, .i32⟩
  | .hbm, ⟨33, _⟩ => ⟨S8x2560x4, .i32⟩
  | .hbm, ⟨34, _⟩ => ⟨S8x2560x4, .i32⟩
  | .hbm, ⟨35, _⟩ => ⟨S8x2560x4, .i1⟩
  | .hbm, ⟨36, _⟩ => ⟨S8x2560x4, .i1⟩
  | .hbm, ⟨37, _⟩ => ⟨S_, .i32⟩
  | .hbm, ⟨38, _⟩ => ⟨S8x2560x4, .i32⟩
  | .hbm, ⟨39, _⟩ => ⟨S8x2560x4, .i32⟩
  | .hbm, ⟨40, _⟩ => ⟨S8x2560x4, .i32⟩
  | .hbm, ⟨41, _⟩ => ⟨S_, .i32⟩
  | .hbm, ⟨42, _⟩ => ⟨S8x2560x4, .i32⟩
  | .hbm, ⟨43, _⟩ => ⟨S8x2560x4, .i32⟩
  | .hbm, ⟨44, _⟩ => ⟨S8x2560x1, .i32⟩
  | .hbm, ⟨45, _⟩ => ⟨S8x2560x4, .i32⟩
  | .hbm, ⟨46, _⟩ => ⟨S8x2560x4, .i32⟩
  | .hbm, ⟨47, _⟩ => ⟨S_, .i32⟩
  | .hbm, ⟨48, _⟩ => ⟨S_, .i32⟩
  | .hbm, ⟨49, _⟩ => ⟨S8x2560x4, .i32⟩
  | .hbm, ⟨50, _⟩ => ⟨S8x2560x4, .i32⟩
  | .hbm, ⟨51, _⟩ => ⟨S2560, .i32⟩
  | .hbm, ⟨52, _⟩ => ⟨S1x2560x1, .i32⟩
  | .hbm, ⟨53, _⟩ => ⟨S8x2560x4, .i32⟩
  | .hbm, ⟨54, _⟩ => ⟨S8, .i32⟩
  | .hbm, ⟨55, _⟩ => ⟨S8x1x1, .i32⟩
  | .hbm, ⟨56, _⟩ => ⟨S8x2560x4, .i32⟩
  | .hbm, ⟨57, _⟩ => ⟨S_, .i32⟩
  | .hbm, ⟨58, _⟩ => ⟨S8x4097, .i32⟩
  | .hbm, ⟨59, _⟩ => ⟨S_, .i32⟩
  | .hbm, ⟨60, _⟩ => ⟨S8x2560x4, .i32⟩
  | .hbm, ⟨61, _⟩ => ⟨S8x2560x4, .i1⟩
  | .hbm, ⟨62, _⟩ => ⟨S_, .i32⟩
  | .hbm, ⟨63, _⟩ => ⟨S8x2560x4, .i32⟩
  | .hbm, ⟨64, _⟩ => ⟨S8x2560x4, .i32⟩
  | .hbm, ⟨65, _⟩ => ⟨S8x2560x4, .i32⟩
  | .hbm, ⟨66, _⟩ => ⟨S_, .i32⟩
  | .hbm, ⟨67, _⟩ => ⟨S8x2560x4, .i32⟩
  | .hbm, ⟨68, _⟩ => ⟨S8x2560x4, .i1⟩
  | .hbm, ⟨69, _⟩ => ⟨S_, .i32⟩
  | .hbm, ⟨70, _⟩ => ⟨S8x2560x4, .i32⟩
  | .hbm, ⟨71, _⟩ => ⟨S8x2560x4, .i32⟩
  | .hbm, ⟨72, _⟩ => ⟨S8x2560x4, .i32⟩
  | .hbm, ⟨73, _⟩ => ⟨S8x2560x4x1, .i32⟩
  | .hbm, ⟨74, _⟩ => ⟨S8x2560x4x1, .i32⟩
  | .hbm, ⟨75, _⟩ => ⟨S8x2560x4x2, .i32⟩
  | .hbm, ⟨76, _⟩ => ⟨S8x4097, .i32⟩
  | .hbm, ⟨77, _⟩ => ⟨S8x4096, .i32⟩
  | .hbm, ⟨78, _⟩ => ⟨S8x32x32x4, .i32⟩
  | .hbm, ⟨79, _⟩ => ⟨S8x2560x3x768, .f32⟩
  | .hbm, ⟨80, _⟩ => ⟨S_, .i32⟩
  | .hbm, ⟨81, _⟩ => ⟨S8x32x32x4, .i32⟩
  | .hbm, ⟨82, _⟩ => ⟨S8x32x32x4, .i32⟩
  | .hbm, ⟨83, _⟩ => ⟨S_, .i32⟩
  | .hbm, ⟨84, _⟩ => ⟨S8x32x32x4, .i32⟩
  | .hbm, ⟨85, _⟩ => ⟨S8x32x32x4, .i1⟩
  | .hbm, ⟨86, _⟩ => ⟨S_, .i32⟩
  | .hbm, ⟨87, _⟩ => ⟨S8x32x32x4, .i32⟩
  | .hbm, ⟨88, _⟩ => ⟨S8x32x32x4, .i32⟩
  | .hbm, ⟨89, _⟩ => ⟨S8x32x32x4, .i32⟩
  | .hbm, ⟨90, _⟩ => ⟨S8x32x32x4x1, .i32⟩
  | .hbm, ⟨91, _⟩ => ⟨S8x32x32x4x3x768, .f32⟩
  | .hbm, ⟨92, _⟩ => ⟨S_, .i32⟩
  | .hbm, ⟨93, _⟩ => ⟨S8x32x32x4, .i32⟩
  | .hbm, ⟨94, _⟩ => ⟨S8x32x32x4, .i1⟩
  | .hbm, ⟨95, _⟩ => ⟨S8x32x32x4x1x1, .i1⟩
  | .hbm, ⟨96, _⟩ => ⟨S_, .f32⟩
  | .hbm, ⟨97, _⟩ => ⟨S8x32x32x4x3x768, .i1⟩
  | .hbm, ⟨98, _⟩ => ⟨S32x32x4x3x768, .f32⟩
  | .hbm, ⟨99, _⟩ => ⟨S8x32x32x4x3x768, .f32⟩
  | .hbm, ⟨100, _⟩ => ⟨S8x32x32x4x3x768, .f32⟩
  | _, _ => ⟨S8x7680x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_c : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_c_0 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_c_1 : Ref sig .tc := ⟨.hbm, 47, rfl⟩
abbrev main_call0_v0 : Ref sig .tc := ⟨.hbm, 48, rfl⟩
abbrev main_call0_v1 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_c_2 : Ref sig .tc := ⟨.hbm, 57, rfl⟩
abbrev main_v50 : Ref sig .tc := ⟨.hbm, 58, rfl⟩
abbrev main_c_3 : Ref sig .tc := ⟨.hbm, 59, rfl⟩
abbrev main_v51 : Ref sig .tc := ⟨.hbm, 60, rfl⟩
abbrev main_v52 : Ref sig .tc := ⟨.hbm, 61, rfl⟩
abbrev main_c_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c_5 : Ref sig .tc := ⟨.hbm, 66, rfl⟩
abbrev main_v56 : Ref sig .tc := ⟨.hbm, 67, rfl⟩
abbrev main_v57 : Ref sig .tc := ⟨.hbm, 68, rfl⟩
abbrev main_c_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c_7 : Ref sig .tc := ⟨.hbm, 80, rfl⟩
abbrev main_v68 : Ref sig .tc := ⟨.hbm, 81, rfl⟩
abbrev main_v69 : Ref sig .tc := ⟨.hbm, 82, rfl⟩
abbrev main_c_8 : Ref sig .tc := ⟨.hbm, 83, rfl⟩
abbrev main_v70 : Ref sig .tc := ⟨.hbm, 84, rfl⟩
abbrev main_v71 : Ref sig .tc := ⟨.hbm, 85, rfl⟩
abbrev main_c_9 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_c_10 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v80 : Ref sig .tc := ⟨.hbm, 100, rfl⟩

abbrev nD : Nat := 1
abbrev τ : Topo := Topo.v7x

variable {F : FTy → Type} [FloatOps F]

class Facts₀ : Prop where
  slices_S8x2560x4_S8x2560x1_0_0_0 : S8x2560x4.Slices ![0, 0, 0] S8x2560x1
  shapeCasts_S8x2560x1_S8x2560 : S8x2560x1.ShapeCasts S8x2560
  slices_S8x2560x4_S8x2560x1_0_0_1 : S8x2560x4.Slices ![0, 0, 1] S8x2560x1
  slices_S8x2560x4_S8x2560x1_0_0_2 : S8x2560x4.Slices ![0, 0, 2] S8x2560x1
  slices_S8x2560x4_S8x2560x1_0_0_3 : S8x2560x4.Slices ![0, 0, 3] S8x2560x1
  bcast_S2_S2x2_0 : S2.BroadcastsInDim S2x2 (![0] : Fin 1 → Fin S2x2.rank)
  bcast_S2_S2x2_1 : S2.BroadcastsInDim S2x2 (![1] : Fin 1 → Fin S2x2.rank)
  shapeCasts_S2x2_S4 : S2x2.ShapeCasts S4
  bcast_S8x2560_S8x2560x1_0_1 : S8x2560.BroadcastsInDim S8x2560x1 (![0, 1] : Fin 2 → Fin S8x2560x1.rank)
  bcast_S4_S1x1x4_2 : S4.BroadcastsInDim S1x1x4 (![2] : Fin 1 → Fin S1x1x4.rank)
  bcast_S8x2560x1_S8x2560x4_0_1_2 : S8x2560x1.BroadcastsInDim S8x2560x4 (![0, 1, 2] : Fin 3 → Fin S8x2560x4.rank)
  bcast_S1x1x4_S8x2560x4_0_1_2 : S1x1x4.BroadcastsInDim S8x2560x4 (![0, 1, 2] : Fin 3 → Fin S8x2560x4.rank)
  bcast_S_S8x2560x4 : S_.BroadcastsInDim S8x2560x4 (![] : Fin 0 → Fin S8x2560x4.rank)
  bcast_S2560_S1x2560x1_1 : S2560.BroadcastsInDim S1x2560x1 (![1] : Fin 1 → Fin S1x2560x1.rank)
  bcast_S1x2560x1_S8x2560x4_0_1_2 : S1x2560x1.BroadcastsInDim S8x2560x4 (![0, 1, 2] : Fin 3 → Fin S8x2560x4.rank)
  bcast_S8_S8x1x1_0 : S8.BroadcastsInDim S8x1x1 (![0] : Fin 1 → Fin S8x1x1.rank)
  bcast_S8x1x1_S8x2560x4_0_1_2 : S8x1x1.BroadcastsInDim S8x2560x4 (![0, 1, 2] : Fin 3 → Fin S8x2560x4.rank)
  bcast_S_S8x4097 : S_.BroadcastsInDim S8x4097 (![] : Fin 0 → Fin S8x4097.rank)
  bcast_S8x2560x4_S8x2560x4x1_0_1_2 : S8x2560x4.BroadcastsInDim S8x2560x4x1 (![0, 1, 2] : Fin 3 → Fin S8x2560x4x1.rank)
  concatenates_S8x2560x4x1_S8x2560x4x1_S8x2560x4x2_d3 : Shape.Concatenates [S8x2560x4x1, S8x2560x4x1] S8x2560x4x2 3
  slices_S8x4097_S8x4096_0_0 : S8x4097.Slices ![0, 0] S8x4096
  shapeCasts_S8x4096_S8x32x32x4 : S8x4096.ShapeCasts S8x32x32x4
  shapeCasts_S8x7680x768_S8x2560x3x768 : S8x7680x768.ShapeCasts S8x2560x3x768
  bcast_S_S8x32x32x4 : S_.BroadcastsInDim S8x32x32x4 (![] : Fin 0 → Fin S8x32x32x4.rank)
  bcast_S8x32x32x4_S8x32x32x4x1_0_1_2_3 : S8x32x32x4.BroadcastsInDim S8x32x32x4x1 (![0, 1, 2, 3] : Fin 4 → Fin S8x32x32x4x1.rank)
  bcast_S8x32x32x4_S8x32x32x4x1x1_0_1_2_3 : S8x32x32x4.BroadcastsInDim S8x32x32x4x1x1 (![0, 1, 2, 3] : Fin 4 → Fin S8x32x32x4x1x1.rank)
  bcast_S8x32x32x4x1x1_S8x32x32x4x3x768_0_1_2_3_4_5 : S8x32x32x4x1x1.BroadcastsInDim S8x32x32x4x3x768 (![0, 1, 2, 3, 4, 5] : Fin 6 → Fin S8x32x32x4x3x768.rank)
  bcast_S_S32x32x4x3x768 : S_.BroadcastsInDim S32x32x4x3x768 (![] : Fin 0 → Fin S32x32x4x3x768.rank)
  bcast_S32x32x4x3x768_S8x32x32x4x3x768_1_2_3_4_5 : S32x32x4x3x768.BroadcastsInDim S8x32x32x4x3x768 (![1, 2, 3, 4, 5] : Fin 5 → Fin S8x32x32x4x3x768.rank)
  scatter_S8x4097_S8x2560x4x2_S8x2560x4_n_01_01_3_wf : ScatterDims.WF S8x4097 S8x2560x4x2 S8x2560x4 [] [0, 1] [0, 1] 3
  gather_S8x2560x3x768_S8x32x32x4x1_S8x32x32x4x3x768_45_1_0_0_1_4_113768_wf : GatherDims.WF S8x2560x3x768 S8x32x32x4x1 S8x32x32x4x3x768 [4, 5] [1] [0] [1] [0] 4 ![1, 1, 3, 768]

variable [Facts₀]

def scatter_S8x4097_S8x2560x4x2_S8x2560x4_n_01_01_3 : ScatterDims S8x4097 S8x2560x4x2 S8x2560x4 where
  updateWindowDims := []
  insertedWindowDims := [0, 1]
  scatterDimsToOperandDims := [0, 1]
  indexVectorDim := 3
  wf := scatter_S8x4097_S8x2560x4x2_S8x2560x4_n_01_01_3_wf
def gather_S8x2560x3x768_S8x32x32x4x1_S8x32x32x4x3x768_45_1_0_0_1_4_113768 : GatherDims S8x2560x3x768 S8x32x32x4x1 S8x32x32x4x3x768 where
  offsetDims := [4, 5]
  collapsedSliceDims := [1]
  operandBatchingDims := [0]
  startIndicesBatchingDims := [0]
  startIndexMap := [1]
  indexVectorDim := 4
  sliceSizes := ![1, 1, 3, 768]
  wf := gather_S8x2560x3x768_S8x32x32x4x1_S8x32x32x4x3x768_45_1_0_0_1_4_113768_wf

class Facts : Prop extends Facts₀ where

variable [Facts]
-- ==== Proof.Pieces.lean ====
/-
  What each control case of the kernel's body leaves in the accumulator (and, at the last reduction step, in the
  output block), as the body's arithmetic applied to the blocks it loads:

    first step   (`pi = 0`)      accumulator := step (zeros)
    middle steps (`0 < pi < 4`)  accumulator := step (accumulator)
    last step    (`pi = 4`)      accumulator := step (accumulator);  output block := that accumulator, recast

  where `step acc = acc + mask · tokens` is the body's one store payload.
-/
import proofs.«139240_j5128190951572_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves, in the accumulator holding `xs0`, the step applied to `xs0`. -/
theorem acc_B (c : Dev nD) (i : grid0.Coords) (arg3 : Memref sig .tc .vmem S1x512x2304 .f32) (harg3 : arg3.IsWhole) (arg4 : Memref sig .tc .vmem S1x1x1024 .i32) (harg4 : arg4.IsWhole) (arg5 : Memref sig .tc .vmem S1x1024x2304 .f32) (harg5 : arg5.IsWhole) (arg6 : Memref sig .tc .vmem S1024x2304 .f32) (harg6 : arg6.IsWhole) (hc0 : ¬cond0_0 i) (hc1 : ¬cond0_1 i)
    (x0 : Vec F S1x512x2304 .f32) (x1 : Vec F S1x1x1024 .i32) (xs0 : Vec F S1024x2304 .f32) :
    sout0_B_0 c i arg3 harg3 arg4 harg4 arg5 harg5 arg6 harg6 hc0 hc1 x0 x1 xs0 = k0_pay2 i x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz2]
  simp only [View.readAt_eq_ld, harg3.read_unread, harg4.read_unread, harg6.read_unread,
    View.ld_unit_zero (S := S1x512x2304) hz3, View.ld_unit_zero (S := S1x1x1024) hz3, View.ld_unit_zero (S := S1024x2304) hz2]

/-- The first step stores zeros, reads them back, and leaves the step applied to zeros. -/
theorem acc_A (c : Dev nD) (i : grid0.Coords) (arg3 : Memref sig .tc .vmem S1x512x2304 .f32) (harg3 : arg3.IsWhole) (arg4 : Memref sig .tc .vmem S1x1x1024 .i32) (harg4 : arg4.IsWhole) (arg5 : Memref sig .tc .vmem S1x1024x2304 .f32) (harg5 : arg5.IsWhole) (arg6 : Memref sig .tc .vmem S1024x2304 .f32) (harg6 : arg6.IsWhole) (hc0 : cond0_0 i) (hc1 : ¬cond0_1 i)
    (x0 : Vec F S1x512x2304 .f32) (x1 : Vec F S1x1x1024 .i32) :
    sout0_A_0 c i arg3 harg3 arg4 harg4 arg5 harg5 arg6 harg6 hc0 hc1 x0 x1 = k0_pay2 i x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x2304) hz2, View.readCov_unit_zero (S := S1024x2304) _ hz2]
  simp only [View.readAt_eq_ld, harg3.read_unread, harg4.read_unread, harg6.read_unread,
    View.ld_unit_zero (S := S1x512x2304) hz3, View.ld_unit_zero (S := S1x1x1024) hz3, View.ld_unit_zero (S := S1024x2304) hz2]

/-- The last step leaves the step applied to the accumulator, in the accumulator, -/
theorem acc_C (c : Dev nD) (i : grid0.Coords) (arg3 : Memref sig .tc .vmem S1x512x2304 .f32) (harg3 : arg3.IsWhole) (arg4 : Memref sig .tc .vmem S1x1x1024 .i32) (harg4 : arg4.IsWhole) (arg5 : Memref sig .tc .vmem S1x1024x2304 .f32) (harg5 : arg5.IsWhole) (arg6 : Memref sig .tc .vmem S1024x2304 .f32) (harg6 : arg6.IsWhole) (hc0 : ¬cond0_0 i) (hc1 : cond0_1 i)
    (x0 : Vec F S1x512x2304 .f32) (x1 : Vec F S1x1x1024 .i32) (xs0 : Vec F S1024x2304 .f32) :
    sout0_C_0 c i arg3 harg3 arg4 harg4 arg5 harg5 arg6 harg6 hc0 hc1 x0 x1 xs0 = k0_pay2 i x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz2]
  simp only [View.readAt_eq_ld, harg3.read_unread, harg4.read_unread, harg6.read_unread,
    View.ld_unit_zero (S := S1x512x2304) hz3, View.ld_unit_zero (S := S1x1x1024) hz3, View.ld_unit_zero (S := S1024x2304) hz2]

/-- and the same values, recast with a leading unit axis, in the output block. -/
theorem out_C (c : Dev nD) (i : grid0.Coords) (arg3 : Memref sig .tc .vmem S1x512x2304 .f32) (harg3 : arg3.IsWhole) (arg4 : Memref sig .tc .vmem S1x1x1024 .i32) (harg4 : arg4.IsWhole) (arg5 : Memref sig .tc .vmem S1x1024x2304 .f32) (harg5 : arg5.IsWhole) (arg6 : Memref sig .tc .vmem S1024x2304 .f32) (harg6 : arg6.IsWhole) (hc0 : ¬cond0_0 i) (hc1 : cond0_1 i)
    (x0 : Vec F S1x512x2304 .f32) (x1 : Vec F S1x1x1024 .i32) (xs0 : Vec F S1024x2304 .f32) :
    out0_C_2 c i arg3 harg3 arg4 harg4 arg5 harg5 arg6 harg6 hc0 hc1 x0 x1 xs0 = k0_pay3 (k0_pay2 i x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz3, View.readCov_unit_zero (S := S1024x2304) _ hz2]
  simp only [View.readAt_eq_ld, harg3.read_unread, harg4.read_unread, harg6.read_unread,
    View.ld_unit_zero (S := S1x512x2304) hz3, View.ld_unit_zero (S := S1x1x1024) hz3, View.ld_unit_zero (S := S1024x2304) hz2]

end Cert.KernelIdeal.Pieces

end
-- ==== Proof.OneHot.lean ====
/-
  The arithmetic of a row selected by a one-hot mask, on the extended reals.

  A mask entry is the integer word `1` where an index word `v` equals a position word and `0` elsewhere, read as
  a real number. Summing `mask · f` over a block of 512 consecutive positions `base, …, base + 511` therefore
  leaves `f` at `v - base` when `v` lies in the block and `0` when it does not: every other term is `0 · f k = 0`
  (true for infinite `f k` as well, on the extended reals), and the one term that survives is `1 · f k`. Adding the
  blocks `0, …, p` in order accumulates "the row at `v` if `v < 512 (p + 1)`, else `0`".
-/
import Idealize.ShloMosaic.PureOps.Ideal
import Idealize.ShloMosaic.Lib.ValueIdx

namespace Cert.OneHot

open Idealize.ShloMosaic

/-- The mask entry for the index word `v` at the position word `w`: the comparison bit widened to an integer
    word and read as a real. -/
def hot (v w : BitVec 32) : EReal := ((((IntOp.cmpi .eq v w).setWidth 32).toInt : ℝ) : EReal)

theorem hot_self (v : BitVec 32) : hot v v = 1 := by
  unfold hot IntOp.cmpi
  simp

theorem hot_ne {v w : BitVec 32} (h : v ≠ w) : hot v w = 0 := by
  unfold hot IntOp.cmpi
  have : (v == w) = false := by simpa using h
  simp [this]

/-- The position word of the kernel's block `p` (of 512) at offset `k`: `p · 512 + k` computed in 32-bit words. -/
theorem pos_word (p k : ℕ) (hp : p < 5) (hk : k < 512) :
    IntOp.addi (Scalar.muli (BitVec.ofNat 32 p) 512#32) (BitVec.ofNat 32 k) = BitVec.ofNat 32 (p * 512 + k) := by
  unfold IntOp.addi Scalar.muli IntOp.muli
  apply BitVec.eq_of_toNat_eq
  simp only [BitVec.toNat_add, BitVec.toNat_mul, BitVec.toNat_ofNat]
  omega

/-- One block's masked sum: the row at `v` when `v` lies in the block, else zero. -/
theorem sum_hot (v : BitVec 32) (base : ℕ) (hb : base + 512 ≤ 2 ^ 32) (f : Fin 512 → EReal) :
    ∑ k : Fin 512, hot v (BitVec.ofNat 32 (base + k.val)) * f k
      = if h : base ≤ v.toNat ∧ v.toNat < base + 512 then f ⟨v.toNat - base, by omega⟩ else 0 := by
  split
  · rename_i h
    rw [Finset.sum_eq_single (⟨v.toNat - base, by omega⟩ : Fin 512)]
    · have e : BitVec.ofNat 32 (base + (v.toNat - base)) = v := by
        apply BitVec.eq_of_toNat_eq
        rw [BitVec.toNat_ofNat]
        have : base + (v.toNat - base) = v.toNat := by omega
        rw [this, Nat.mod_eq_of_lt v.isLt]
      show hot v (BitVec.ofNat 32 (base + (v.toNat - base))) * _ = _
      rw [e, hot_self, one_mul]
    · intro k _ hk
      rw [hot_ne, zero_mul]
      intro e
      apply hk
      apply Fin.ext
      have := congrArg BitVec.toNat e
      rw [BitVec.toNat_ofNat, Nat.mod_eq_of_lt (by have := k.isLt; omega)] at this
      show k.val = v.toNat - base
      omega
    · intro h'; exact absurd (Finset.mem_univ _) h'
  · rename_i h
    apply Finset.sum_eq_zero
    intro k _
    rw [hot_ne, zero_mul]
    intro e
    apply h
    have := congrArg BitVec.toNat e
    rw [BitVec.toNat_ofNat, Nat.mod_eq_of_lt (by have := k.isLt; omega)] at this
    have := k.isLt
    omega

end Cert.OneHot
-- ==== Proof.LibColumn.lean ====
/-
  Two layout operations of a keepdims reduction read at an index: a vector `[a]` recast as a column `[a, 1]`, and a
  column `[a, 1]` broadcast along its rows to `[a, b]`. Both read the operand at the row's coordinate.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPay.lean ====
/-
  The accumulation step of the kernel's body read at an index, on the extended reals.

  The body's one store payload is `acc + mask · tokens`: the mask's entry `(r, k)` is `1` where the index word of
  output row `r` equals the position word `512 · pi + k` of the current block of patches, and `0` elsewhere; the
  matrix product contracts `k` over the block's 512 patches. At row `r` and column `c` the step therefore adds to
  the accumulator the sum over `k` of (mask entry) × (token value of patch `k` of the block, column `c`).
-/
import proofs.«139240_j5128190951572_1_alg».proof.Proof.Gen.KernelIdeal.Skeleton
import proofs.«139240_j5128190951572_1_alg».proof.Proof.OneHot
import proofs.«139240_j5128190951572_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Cert.OneHot

namespace Cert.KernelIdeal.Pay

open Cert.KernelIdeal Cert.KernelIdeal.Gen

/-- The index word of output row `r`, as the body reshapes and broadcasts it across the block's 512 columns. -/
theorem index_word (v6 : Vec Ideal S1x1x1024 .i32) (h1 h2 h3) (r : Fin 1024) (k : Fin 512) :
    broadcastTo S1024x512 (shapeCast S1024x1 (shapeCast S1024 v6 h1) h2) h3 (ix2 r k) = v6 (ix3 (0 : Fin 1) (0 : Fin 1) r) := by
  rw [broadcastTo_a1_ab_apply, shapeCast_a_a1_apply]
  exact shapeCast_apply v6 h1 _ _ (by
    rw [Shape.rowMajor_val_three, Shape.rowMajor_val_one]
    show (0 * 1 + 0) * 1024 + r.val = r.val
    omega)

/-- The position word of column `k` of block `p`: `512 · p + k`, the block's base broadcast and added to a lane count. -/
theorem position_word (p : ℕ) (hp : p < 5) (h1 h2) (r : Fin 1024) (k : Fin 512) :
    broadcastTo S1024x512 (addi (broadcast S1x512 (Scalar.muli (BitVec.ofNat 32 p) 512#32)) (iota .tc S1x512 32 [1] h1)) h2 (ix2 r k)
      = BitVec.ofNat 32 (p * 512 + k.val) := by
  rw [broadcastTo_1b_ab_apply]
  show IntOp.addi (Scalar.muli (BitVec.ofNat 32 p) 512#32) (iota .tc S1x512 32 [1] h1 (ix2 (0 : Fin 1) k)) = _
  rw [iota_single_apply]
  exact pos_word p k.val hp k.isLt

/-- The step at an index: the accumulator's element plus the masked sum over the block's 512 patches. -/
theorem pay2_apply (i : grid0.Coords) (v3 : Vec Ideal S1x512x2304 .f32) (v6 : Vec Ideal S1x1x1024 .i32)
    (v19 : Vec Ideal S1024x2304 .f32) (r : Fin 1024) (c : Fin 2304) :
    k0_pay2 (F := Ideal) i v3 v6 v19 (ix2 r c)
      = v19 (ix2 r c) + ∑ k : Fin 512, hot (v6 (ix3 (0 : Fin 1) (0 : Fin 1) r)) (BitVec.ofNat 32 ((i 2).val * 512 + k.val)) * v3 (ix3 (0 : Fin 1) k c) := by
  have hp : (i 2).val < 5 := (i 2).isLt
  unfold k0_pay2
  dsimp only
  rw [shapeCast_self]
  refine congrArg (v19 (ix2 r c) + ·) ?_
  refine (Ideal.matmul_constant_zero_apply _ none _ _ (ix2 r c)).trans ?_
  refine (Equiv.sum_comp (contrEquiv1 dot_S1024x512_S512x2304_S1024x2304_1_0_0_1_n_n 512 rfl rfl).symm _).symm.trans ?_
  refine Finset.sum_congr rfl fun k _ => ?_
  have hl : dot_S1024x512_S512x2304_S1024x2304_1_0_0_1_n_n.lhsIdx (ix2 r c)
      ((contrEquiv1 dot_S1024x512_S512x2304_S1024x2304_1_0_0_1_n_n 512 rfl rfl).symm k) = ix2 r k := by
    funext a; apply Fin.ext
    match a with
    | ⟨0, _⟩ => rfl
    | ⟨1, _⟩ =>
      exact (DotDims.lhsIdx_val_of_single _ (cl := (1 : Fin 2)) rfl _ _).trans
        (contrEquiv1_symm_val dot_S1024x512_S512x2304_S1024x2304_1_0_0_1_n_n 512 rfl rfl k)
  have hr : dot_S1024x512_S512x2304_S1024x2304_1_0_0_1_n_n.rhsIdx (ix2 r c)
      ((contrEquiv1 dot_S1024x512_S512x2304_S1024x2304_1_0_0_1_n_n 512 rfl rfl).symm k) = ix2 k c := by
    funext a; apply Fin.ext
    match a with
    | ⟨0, _⟩ =>
      exact (DotDims.rhsIdx_val_of_single _ (cr := (0 : Fin 2)) rfl _ _).trans
        (contrEquiv1_symm_val dot_S1024x512_S512x2304_S1024x2304_1_0_0_1_n_n 512 rfl rfl k)
    | ⟨1, _⟩ => rfl
  rw [hl, hr]
  refine congrArg₂ (· * ·) ?_ ?_
  · show ((((IntOp.cmpi .eq _ _).setWidth 32).toInt : ℝ) : EReal) = _
    rw [index_word, position_word _ hp]
    rfl
  · exact shapeCast_1ab_ab_apply v3 _ k c

end Cert.KernelIdeal.Pay

end
-- ==== Proof.KernelAcc.lean ====
/-
  The kernel's result array, read off the generated frame run.

  The grid is `(b, ci, pi)`, the reduction step `pi` innermost: point `n` has `b = n / 20`, `ci = n / 5 % 4`,
  `pi = n % 5`. Over the five steps of one `(b, ci)` the accumulator gathers, for each output row `r` of the tile
  (cell `1024 ci + r`) with index word `v`, the token row of patch `v`: after step `pi` it holds that row if
  `v < 512 (pi + 1)` and zero otherwise (each step adds the one-hot sum over its 512 patches, which is the row when
  `512 pi ≤ v < 512 (pi + 1)` and zero otherwise). After the last step (`pi = 4`) this is the row of patch `v` for
  every `v < 2560` and zero for every other word, and the step writes it to the output block, which the pipeline
  writes back to rows `1024 ci … 1024 ci + 1023` of batch `b`. These blocks tile the result array.
-/
import proofs.«139240_j5128190951572_1_alg».proof.Proof.Pieces
import proofs.«139240_j5128190951572_1_alg».proof.Proof.KernelPay
import Idealize.ShloMosaic.Lib.ValueLayout

noncomputable section

open Idealize.ShloMosaic Idealize.ShloMosaic.TcCoe Idealize.SL.Sem Idealize.ShloMosaic.ValueIdx
open Idealize.ShloMosaic.Pipeline (Dat)
open Cert.OneHot

namespace Cert.KernelIdeal.Acc

open Cert.KernelIdeal Cert.KernelIdeal.Gen Cert.KernelIdeal.Pieces Cert.KernelIdeal.Pay

/-! ## The arithmetic of one step -/

/-- Row `n` of batch `b` of a token array, at column `c`; zero when `n` is past the last patch. -/
def rowOf (T : S8x2560x2304.Idx → EReal) (b : Fin 8) (n : ℕ) (c : Fin 2304) : EReal :=
  if h : n < 2560 then T (ix3 b ⟨n, h⟩ c) else 0

/-- One step on one element: if the accumulator holds the row of patch `v` when `v` is below the block's base
    (else zero), adding the block's one-hot sum leaves the row when `v` is below the next block's base (else zero). -/
theorem step_math (T : S8x2560x2304.Idx → EReal) (b : Fin 8) (j : Fin 2304) (v : BitVec 32) (p : ℕ) (hp : p < 5)
    (f : Fin 512 → EReal) (hf : ∀ k : Fin 512, f k = T (ix3 b ⟨p * 512 + k.val, by have := k.isLt; omega⟩ j)) (a : EReal)
    (ha : a = if v.toNat < p * 512 then rowOf T b v.toNat j else 0) :
    a + ∑ k : Fin 512, hot v (BitVec.ofNat 32 (p * 512 + k.val)) * f k
      = if v.toNat < (p + 1) * 512 then rowOf T b v.toNat j else 0 := by
  rw [sum_hot v (p * 512) (by omega) f, ha]
  by_cases h1 : v.toNat < p * 512
  · have h2 : ¬(p * 512 ≤ v.toNat ∧ v.toNat < p * 512 + 512) := by omega
    rw [if_pos h1, dif_neg h2, add_zero, if_pos (by omega)]
  · rw [if_neg h1, zero_add]
    by_cases h2 : p * 512 ≤ v.toNat ∧ v.toNat < p * 512 + 512
    · rw [dif_pos h2, if_pos (by omega), hf]
      unfold rowOf
      rw [dif_pos (by omega)]
      exact congrArg (fun q : Fin 2560 => T (ix3 b q j)) (Fin.ext (by show p * 512 + (v.toNat - p * 512) = v.toNat; omega))
    · rw [dif_neg h2, if_neg (by omega)]

/-- The same for the body's payload, over any loaded blocks: `X0` the block of 512 token rows of batch `b` from
    patch `512 p`, `X1` the tile's index words, `acc` the accumulator. -/
theorem step_val (i : grid0.Coords) (X0 : Vec Ideal S1x512x2304 .f32) (X1 : Vec Ideal S1x1x1024 .i32)
    (acc : Vec Ideal S1024x2304 .f32) (T : S8x2560x2304.Idx → EReal) (b : Fin 8) (r : Fin 1024) (j : Fin 2304)
    (p : ℕ) (hp : p < 5) (hi : (i 2).val = p)
    (hX0 : ∀ k : Fin 512, X0 (ix3 (0 : Fin 1) k j) = T (ix3 b ⟨p * 512 + k.val, by have := k.isLt; omega⟩ j))
    (hacc : acc (ix2 r j) = if (X1 (ix3 (0 : Fin 1) (0 : Fin 1) r)).toNat < p * 512
      then rowOf T b (X1 (ix3 (0 : Fin 1) (0 : Fin 1) r)).toNat j else 0) :
    k0_pay2 (F := Ideal) i X0 X1 acc (ix2 r j)
      = if (X1 (ix3 (0 : Fin 1) (0 : Fin 1) r)).toNat < (p + 1) * 512
        then rowOf T b (X1 (ix3 (0 : Fin 1) (0 : Fin 1) r)).toNat j else 0 := by
  rw [pay2_apply, hi]
  exact step_math T b j _ p hp (fun k => X0 (ix3 (0 : Fin 1) k j)) hX0 _ hacc

/-- The zero block the first step stores reads zero. -/
theorem pay1_apply (y : S1024x2304.Idx) : k0_pay1 (F := Ideal) y = 0 := by
  unfold k0_pay1
  rw [shapeCast_self]
  exact Ideal.ofBits_zero_f32

/-! ## The grid's points and the windows' blocks -/

variable (m : (ℓ : Loc nD τ sig) → Buf (Elt Ideal) ℓ) (ρ : Dev nD → PrngReg)

/-- The token array and the index-word array as the region finds them. -/
abbrev tok (c : Dev nD) : S8x2560x2304.Idx → EReal := V (F := Ideal) m c main_v67
abbrev idw (c : Dev nD) : S8x1x4096.Idx → BitVec 32 := V (F := Ideal) m c main_v66

/-- Point `n`'s batch, and the cell of row `r` of its tile. -/
abbrev batchOf (n : ℕ) : Fin 8 := ⟨n / 20 % 8, Nat.mod_lt _ (by decide)⟩
abbrev cellOf (n : ℕ) (r : Fin 1024) : Fin 4096 := ⟨n / 5 % 4 * 1024 + r.val, by have := r.isLt; omega⟩

/-- The printed index maps and the reduction coordinate, decided over the grid's 160 points. -/
theorem idx_facts : ∀ t : Fin cfg0.N,
    win0_0.index t (0 : Fin 3) = t.val / 20 ∧ win0_0.index t (1 : Fin 3) = t.val % 5 ∧ win0_0.index t (2 : Fin 3) = 0
    ∧ win0_1.index t (0 : Fin 3) = t.val / 20 ∧ win0_1.index t (1 : Fin 3) = 0 ∧ win0_1.index t (2 : Fin 3) = t.val / 5 % 4
    ∧ win0_2.index t (0 : Fin 3) = t.val / 20 ∧ win0_2.index t (1 : Fin 3) = t.val / 5 % 4 ∧ win0_2.index t (2 : Fin 3) = 0
    ∧ ((grid0.coords t) 2).val = t.val % 5 :=
  (by decide +kernel : ∀ t : Fin grid0.N, _)

theorem hN : cfg0.N = 160 := N_0

/-- The token block at point `t`: 512 rows of batch `b` from patch `512 pi`. -/
theorem blk0 (c : Dev nD) (t : Fin cfg0.N) (k : Fin 512) (j : Fin 2304) :
    (iblk (F := Ideal) m c 0 t : Vec Ideal S1x512x2304 .f32) (ix3 (0 : Fin 1) k j)
      = tok m c (ix3 (batchOf t.val) ⟨t.val % 5 * 512 + k.val, by have := k.isLt; omega⟩ j) := by
  obtain ⟨e0, e1, e2, -⟩ := idx_facts t
  have ht : t.val < 160 := lt_of_lt_of_eq t.isLt hN
  unfold iblk
  rw [View.read_apply]
  show V m c main_v67 _ = V m c main_v67 _
  congr 1
  funext a
  apply Fin.ext
  match a with
  | ⟨0, _⟩ => show win0_0.index t (0 : Fin 3) * 1 + 1 * 0 = t.val / 20 % 8; rw [e0]; omega
  | ⟨1, _⟩ => show win0_0.index t (1 : Fin 3) * 512 + 1 * k.val = t.val % 5 * 512 + k.val; rw [e1]; omega
  | ⟨2, _⟩ => show win0_0.index t (2 : Fin 3) * 2304 + 1 * j.val = j.val; rw [e2]; omega

/-- The index-word block at point `t`: the 1024 cells of tile `ci` of batch `b`. -/
theorem blk1 (c : Dev nD) (t : Fin cfg0.N) (r : Fin 1024) :
    (iblk (F := Ideal) m c 1 t : Vec Ideal S1x1x1024 .i32) (ix3 (0 : Fin 1) (0 : Fin 1) r)
      = idw m c (ix3 (batchOf t.val) (0 : Fin 1) (cellOf t.val r)) := by
  obtain ⟨-, -, -, e0, e1, e2, -⟩ := idx_facts t
  have ht : t.val < 160 := lt_of_lt_of_eq t.isLt hN
  unfold iblk
  rw [View.read_apply]
  show V m c main_v66 _ = V m c main_v66 _
  congr 1
  funext a
  apply Fin.ext
  match a with
  | ⟨0, _⟩ => show win0_1.index t (0 : Fin 3) * 1 + 1 * 0 = t.val / 20 % 8; rw [e0]; omega
  | ⟨1, _⟩ => show win0_1.index t (1 : Fin 3) * 1 + 1 * 0 = 0; rw [e1]
  | ⟨2, _⟩ => show win0_1.index t (2 : Fin 3) * 1024 + 1 * r.val = t.val / 5 % 4 * 1024 + r.val; rw [e2]; omega

/-! ## The accumulator after each point -/

/-- One point's step on one element, from what the accumulator held before it. -/
theorem point_val (c : Dev nD) (t : Fin cfg0.N) (prev : Vec Ideal S1024x2304 .f32) (r : Fin 1024) (j : Fin 2304)
    (p : ℕ) (hpp : t.val % 5 = p)
    (hprev : prev (ix2 r j) = if (idw m c (ix3 (batchOf t.val) (0 : Fin 1) (cellOf t.val r))).toNat < p * 512
      then rowOf (tok m c) (batchOf t.val) (idw m c (ix3 (batchOf t.val) (0 : Fin 1) (cellOf t.val r))).toNat j else 0) :
    k0_pay2 (F := Ideal) (grid0.coords t) (iblk m c 0 t) (iblk m c 1 t) prev (ix2 r j)
      = if (idw m c (ix3 (batchOf t.val) (0 : Fin 1) (cellOf t.val r))).toNat < (p + 1) * 512
        then rowOf (tok m c) (batchOf t.val) (idw m c (ix3 (batchOf t.val) (0 : Fin 1) (cellOf t.val r))).toNat j else 0 := by
  obtain ⟨-, -, -, -, -, -, -, -, -, e9⟩ := idx_facts t
  have hw := blk1 m c t r
  have hp5 : p < 5 := by omega
  refine (step_val (grid0.coords t) (iblk m c 0 t) (iblk m c 1 t) prev (tok m c) (batchOf t.val) r j p hp5 (e9.trans hpp)
    (fun k => (blk0 m c t k j).trans (congrArg (fun q : Fin 2560 => tok m c (ix3 (batchOf t.val) q j))
      (Fin.ext (by show t.val % 5 * 512 + k.val = p * 512 + k.val; rw [hpp]))))
    (by rw [hw]; exact hprev)).trans ?_
  rw [hw]

/-- At the first step of a tile the accumulator starts from zeros. -/
theorem first_step (c : Dev nD) (t : Fin cfg0.N) (h0 : t.val % 5 = 0) (r : Fin 1024) (j : Fin 2304) :
    (outsAt0 (F := Ideal) m c t.val t.isLt).2 (ix2 r j)
      = if (idw m c (ix3 (batchOf t.val) (0 : Fin 1) (cellOf t.val r))).toNat < (t.val % 5 + 1) * 512
        then rowOf (tok m c) (batchOf t.val) (idw m c (ix3 (batchOf t.val) (0 : Fin 1) (cellOf t.val r))).toNat j else 0 := by
  have h1 : ¬ t.val % 5 = 4 := by omega
  rw [outsAt0_A m c t h0 h1]
  dsimp only
  refine (congrFun (acc_A c (grid0.coords t) (ms0_0 t) (hs0_0 t) (ms0_1 t) (hs0_1 t) (ms0_2 t) (hs0_2 t) scM0_0
    (Memref.isWhole_whole _) _ _ (iblk m c 0 t) (iblk m c 1 t)) (ix2 r j)).trans ?_
  refine (point_val m c t (k0_pay1 (F := Ideal)) r j 0 h0 ?_).trans ?_
  · rw [pay1_apply, if_neg (by omega)]
  · rw [h0]

/-- The accumulator after point `n`: at row `r`, the token row of the patch the row's index word names if that
    patch is below `512 (pi + 1)`, else zero. By induction on the point. -/
theorem acc_eq (c : Dev nD) : ∀ (n : ℕ) (h : n < cfg0.N) (r : Fin 1024) (j : Fin 2304),
    (outsAt0 (F := Ideal) m c n h).2 (ix2 r j)
      = if (idw m c (ix3 (batchOf n) (0 : Fin 1) (cellOf n r))).toNat < (n % 5 + 1) * 512
        then rowOf (tok m c) (batchOf n) (idw m c (ix3 (batchOf n) (0 : Fin 1) (cellOf n r))).toNat j else 0 := by
  intro n
  induction n with
  | zero => intro h r j; exact first_step m c ⟨0, h⟩ rfl r j
  | succ n ih =>
    intro h r j
    by_cases h0 : (n + 1) % 5 = 0
    · exact first_step m c ⟨n + 1, h⟩ h0 r j
    · have ih' := ih (Nat.lt_of_succ_lt h) r j
      have eb : batchOf (n + 1) = batchOf n := Fin.ext (by show (n + 1) / 20 % 8 = n / 20 % 8; omega)
      have ec : cellOf (n + 1) r = cellOf n r :=
        Fin.ext (by show (n + 1) / 5 % 4 * 1024 + r.val = n / 5 % 4 * 1024 + r.val; omega)
      have ep : (n + 1) % 5 = n % 5 + 1 := by omega
      have hprev : (outsAt0 (F := Ideal) m c n (Nat.lt_of_succ_lt h)).2 (ix2 r j)
          = if (idw m c (ix3 (batchOf (n + 1)) (0 : Fin 1) (cellOf (n + 1) r))).toNat < (n + 1) % 5 * 512
            then rowOf (tok m c) (batchOf (n + 1)) (idw m c (ix3 (batchOf (n + 1)) (0 : Fin 1) (cellOf (n + 1) r))).toNat j
            else 0 := by
        rw [eb, ec, ep]; exact ih'
      by_cases h4 : (n + 1) % 5 = 4
      · rw [outsAt0_C m c ⟨n + 1, h⟩ h0 h4]
        dsimp only
        refine (congrFun (acc_C c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) _ _
          (iblk m c 0 ⟨n + 1, h⟩) (iblk m c 1 ⟨n + 1, h⟩) _) (ix2 r j)).trans ?_
        exact point_val m c ⟨n + 1, h⟩ _ r j ((n + 1) % 5) rfl hprev
      · rw [outsAt0_B m c ⟨n + 1, h⟩ h0 h4]
        dsimp only
        refine (congrFun (acc_B c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) _ _
          (iblk m c 0 ⟨n + 1, h⟩) (iblk m c 1 ⟨n + 1, h⟩) _) (ix2 r j)).trans ?_
        exact point_val m c ⟨n + 1, h⟩ _ r j ((n + 1) % 5) rfl hprev

/-! ## The result array -/

/-- Guarding a row by "the patch number is below 2560" changes nothing: past the last patch the row is zero. -/
theorem rowOf_guard (T : S8x2560x2304.Idx → EReal) (b : Fin 8) (n : ℕ) (j : Fin 2304) :
    (if n < 2560 then rowOf T b n j else 0) = rowOf T b n j := by
  unfold rowOf
  by_cases h : n < 2560
  · rw [if_pos h]
  · rw [if_neg h, dif_neg h]

/-- The kernel's result array: row `cell` of batch `b` is the token row of the patch the cell's index word names,
    and zero when the word names no patch. -/
def result (c : Dev nD) : S8x4096x2304.Idx → EReal := fun i =>
  rowOf (tok m c) (i 0) (idw m c (ix3 (i 0) (0 : Fin 1) (i 1))).toNat (i 2)

/-- The output block's payload: the accumulator with a leading unit axis. -/
theorem out_val (X : Vec Ideal S1024x2304 .f32) (y : S1x1024x2304.Idx) :
    k0_pay3 (F := Ideal) X y = X (ix2 (y 1) (y 2)) := by
  unfold k0_pay3
  exact (congrArg _ (eq_ix3 y)).trans (shapeCast_ab_1ab_apply X _ (y 0) (y 1) (y 2))

/-- Reading an array through the output window's block at point `t` reads it at the block's embedded index. -/
theorem read_blk2 (t : Fin cfg0.N) (G : S8x4096x2304.Idx → EReal) (j : ((cfg0.win 2).xblock (grid0.coords t)).Idx) :
    ((cfg0.win 2).blk t).view.read (Elt Ideal) G j = G (((cfg0.win 2).blk t).view.emb j) := rfl

/-- What a writing point (the last step of a tile) writes back is its block of the result array. -/
theorem flushed_eq (c : Dev nD) (t : Fin cfg0.N) (hf : (cfg0.win 2).flush t = true) :
    (dats m 0 c).flushed 2 t = ((cfg0.win 2).blk t).view.read (Elt Ideal) (result m c) := by
  have h4 : t.val % 5 = 4 := (flush0_2 t).mp hf
  have h0 : ¬ t.val % 5 = 0 := by omega
  have ht : t.val < 160 := lt_of_lt_of_eq t.isLt hN
  obtain ⟨-, -, -, -, -, -, e0, e1, e2, -⟩ := idx_facts t
  show (cfg0.win 2).cut (grid0.coords t) ((dats m 0 c).after 2 t) = _
  rw [after0_2]
  have hacc : (outsAt0 (F := Ideal) m c t.val t.isLt).2
      = k0_pay2 (F := Ideal) (grid0.coords t) (iblk m c 0 t) (iblk m c 1 t)
          (outsAt0 (F := Ideal) m c (t.val - 1) (Nat.lt_of_le_of_lt (Nat.sub_le _ _) t.isLt)).2 := by
    rw [outsAt0_C m c t h0 h4]
    dsimp only
    exact acc_C (F := Ideal) c (grid0.coords t) (ms0_0 t) (hs0_0 t) (ms0_1 t) (hs0_1 t) (ms0_2 t) (hs0_2 t) scM0_0
      (Memref.isWhole_whole _) _ _ (iblk m c 0 t) (iblk m c 1 t)
      (outsAt0 (F := Ideal) m c (t.val - 1) (Nat.lt_of_le_of_lt (Nat.sub_le _ _) t.isLt)).2
  have hout : (outsAt0 (F := Ideal) m c t.val t.isLt).1
      = k0_pay3 (F := Ideal) (k0_pay2 (F := Ideal) (grid0.coords t) (iblk m c 0 t) (iblk m c 1 t)
          (outsAt0 (F := Ideal) m c (t.val - 1) (Nat.lt_of_le_of_lt (Nat.sub_le _ _) t.isLt)).2) := by
    rw [outsAt0_C m c t h0 h4]
    dsimp only
    exact out_C (F := Ideal) c (grid0.coords t) (ms0_0 t) (hs0_0 t) (ms0_1 t) (hs0_1 t) (ms0_2 t) (hs0_2 t) scM0_0
      (Memref.isWhole_whole _) _ _ (iblk m c 0 t) (iblk m c 1 t)
      (outsAt0 (F := Ideal) m c (t.val - 1) (Nat.lt_of_le_of_lt (Nat.sub_le _ _) t.isLt)).2
  have key : (outsAt0 (F := Ideal) m c t.val t.isLt).1
      = fun y : S1x1024x2304.Idx => result m c (ix3 (batchOf t.val) (cellOf t.val (y 1)) (y 2)) := by
    funext y
    rw [hout, ← hacc]
    refine (out_val _ y).trans ?_
    refine (acc_eq m c t.val t.isLt (y 1) (y 2)).trans ?_
    rw [h4]
    exact rowOf_guard _ _ _ _
  rw [key]
  funext j
  refine Eq.trans ?_ (read_blk2 t (result m c) j).symm
  show result m c _ = result m c _
  congr 1
  funext a
  apply Fin.ext
  match a with
  | ⟨0, _⟩ =>
    show t.val / 20 % 8 = win0_2.index t (0 : Fin 3) * 1 + 1 * (j 0).val
    have : (j 0).val < 1 := (j 0).isLt
    rw [e0]; omega
  | ⟨1, _⟩ => show t.val / 5 % 4 * 1024 + (j 1).val = win0_2.index t (1 : Fin 3) * 1024 + 1 * (j 1).val; rw [e1]; omega
  | ⟨2, _⟩ => show (j 2).val = win0_2.index t (2 : Fin 3) * 2304 + 1 * (j 2).val; rw [e2]; omega

/-- An index of the result array is in point `t`'s block iff each coordinate is in the block's range on its axis. -/
theorem mem_blk (t : Fin cfg0.N) (i : S8x4096x2304.Idx) :
    i ∈ ((cfg0.win 2).blk t).view.set ↔ ∀ a : Fin 3, win0_2.index t a * S1x1024x2304.size a ≤ (i a).val
      ∧ (i a).val < win0_2.index t a * S1x1024x2304.size a + S1x1024x2304.size a := by
  show i ∈ ((View.whole main_v68).slice (win0_2.rect t)).set ↔ _
  rw [View.set_slice_whole, Rect.mem_set_unit]
  exact Iff.rfl

/-- Every row of the result array lies in the block of the last step of its tile. -/
theorem cover (i : S8x4096x2304.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 2304 := (i 2).isLt
  let t : Fin cfg0.N := ⟨((i 0).val * 4 + (i 1).val / 1024) * 5 + 4, by rw [hN]; omega⟩
  have htv : t.val = ((i 0).val * 4 + (i 1).val / 1024) * 5 + 4 := rfl
  obtain ⟨-, -, -, -, -, -, e0, e1, e2, -⟩ := idx_facts t
  refine ⟨t, (flush0_2 t).mpr (by rw [htv]; omega), ?_⟩
  rw [mem_blk]
  intro a
  match a with
  | ⟨0, _⟩ =>
    show win0_2.index t (0 : Fin 3) * 1 ≤ (i 0).val ∧ (i 0).val < win0_2.index t (0 : Fin 3) * 1 + 1
    rw [e0, htv]; omega
  | ⟨1, _⟩ =>
    show win0_2.index t (1 : Fin 3) * 1024 ≤ (i 1).val ∧ (i 1).val < win0_2.index t (1 : Fin 3) * 1024 + 1024
    rw [e1, htv]; omega
  | ⟨2, _⟩ =>
    show win0_2.index t (2 : Fin 3) * 2304 ≤ (i 2).val ∧ (i 2).val < win0_2.index t (2 : Fin 3) * 2304 + 2304
    rw [e2]; omega

/-- So the pipeline's output array ends holding the result array. -/
theorem final (c : Dev nD) : (dats m 0 c).arrAt 2 cfg0.N = result m c :=
  (dats m 0 c).arrAt_eq_of_cover 2 (result m c) (flushed_eq m c) cover

/-- The one host operation after the region recasts it to the six-axis result. -/
theorem tail_eq (c : Dev nD) :
    Pipeline.afterTail₀ cfgs (dats m) 0 (V0 m) [hostOps1] c main_v69
      = shapeCast S8x32x32x4x3x768 (result m c) shapeCasts_S8x4096x2304_S8x32x32x4x3x768 := by
  unfold Pipeline.afterTail₀
  show StableHlo.after hostOps1 _ (Proc.devRef .tc main_v69) = _
  after_results
  have hw : Pipeline.withArrays (cfgs 0).spec c (V0 m c) (fun w => (dats m 0 c).arrAt w (cfgs 0).N)
      (Proc.devRef .tc main_v68) = result m c :=
    (Pipeline.withArrays_arr spec0 launch0.win.arr_inj c _ _ 2).trans (final m c)
  rw [hw]
  rfl

/-! ## The run, read -/

/-- The frame run re-posted: the result buffer at the recast result array, the arguments unchanged. -/
theorem run : θ_run defs (onTc (τ := τ) (main (F := Ideal))) ⟨m, fun _ => 0, ρ⟩ fun r => ∀ c : Dev nD,
      r.2.mem ((c.tc : Thread nD τ).loc main_v69)
        = shapeCast S8x32x32x4x3x768 (result m c) shapeCasts_S8x4096x2304_S8x32x32x4x3x768
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v69 (Pipeline.mem_restRefs_of main_v69 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc
end
-- ==== Proof.KernelHostEval.lean ====
/-
  The kernel's host operations before the region, evaluated a few at a time: what the region finds in its two
  operand arrays.

  They are the reference's first operations, one for one: the cell-to-patch index map computed from the positions by
  one overwriting scatter, then cut to its first 4096 columns (`val_main_v65`, the reference's own stage function of
  the positions), here recast to `[8, 1, 4096]`; and the tokens recast to `[8, 2560, 2304]`. The fold of the 81
  operations is cut after operations 8, 14, 24, 35, 45, 49, 64, 71, 73 and 76; at each cut only the values a later
  operation still reads are named, each a stage function of the arguments, and the buffers' contents are forgotten.
-/
import proofs.«139240_j5128190951572_1_alg».proof.Proof.Gen.KernelIdeal.Launch
import proofs.«139240_j5128190951572_1_alg».proof.Proof.RefReadP
import Idealize.ShloMosaic.Lib.Pipeline.Frame
import Idealize.ShloMosaic.Lib.StableHlo.Run

noncomputable section

namespace Cert.KernelIdeal.HostEval

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

/-- The fold over a list is the fold over what is left after its first `n` operations, from the fold over those. -/
theorem after_split (n : ℕ) (l : List (HloOp τ sig (Elt F))) (V : Valuation τ sig (Elt F)) :
    after l V = after (l.drop n) (after (l.take n) V) := by
  rw [← StableHlo.after_append, List.take_append_drop]

/-- Spell the chunk's operations out and read each result buffer off them. -/
local macro "stage" : tactic =>
  `(tactic| (simp only [hostOps0, hostOps0_1, hostOps0_2, List.flatten_cons, List.flatten_nil, List.append_nil, List.cons_append, List.nil_append, List.take_succ_cons, List.take_zero, List.drop_succ_cons, List.drop_zero]; after_results_simp))

set_option maxRecDepth 16384 in
set_option maxHeartbeats 4000000 in
/-- The two operand arrays after the host operations before the region, from any contents `W0` holding `x0` and
    `x1` at the arguments. -/
theorem eval_inputs (W0 : Valuation τ sig (Elt F)) (x0 : (⟨S8x7680x768, .f32⟩ : BufTy).Contents (Elt F))
    (x1 : (⟨S8x2560x4, .i32⟩ : BufTy).Contents (Elt F))
    (h0_arg0 : W0 (Proc.devRef .tc main_arg0) = x0) (h0_arg1 : W0 (Proc.devRef .tc main_arg1) = x1) :
    after (List.flatten [hostOps0 (F := F), hostOps0_1, hostOps0_2]) W0 (Proc.devRef .tc main_v66)
        = shapeCast S8x1x4096 (val_main_v65 (F := F) x1) shapeCasts_S8x4096_S8x1x4096
      ∧ after (List.flatten [hostOps0 (F := F), hostOps0_1, hostOps0_2]) W0 (Proc.devRef .tc main_v67)
        = shapeCast S8x2560x2304 x0 shapeCasts_S8x7680x768_S8x2560x2304 := by
  -- the next 8 operations
  rw [after_split 8]
  generalize hW1 : after (List.take 8 _) W0 = W1
  have h1_v1 : W1 (Proc.devRef .tc main_v1) = val_main_v1 (F := F) x1 := by
    rw [← hW1]; stage; simp only [h0_arg1]; rfl
  have h1_v3 : W1 (Proc.devRef .tc main_v3) = val_main_v3 (F := F) x1 := by
    rw [← hW1]; stage; simp only [h0_arg1]; rfl
  have h1_v5 : W1 (Proc.devRef .tc main_v5) = val_main_v5 (F := F) x1 := by
    rw [← hW1]; stage; simp only [h0_arg1]; rfl
  have h1_v7 : W1 (Proc.devRef .tc main_v7) = val_main_v7 (F := F) x1 := by
    rw [← hW1]; stage; simp only [h0_arg1]; rfl
  have h1_arg0 : W1 (Proc.devRef .tc main_arg0) = x0 := by
    rw [← hW1]; stage; exact h0_arg0
  clear hW1
  -- the next 6 operations
  rw [after_split 6]
  generalize hW2 : after (List.take 6 _) W1 = W2
  have h2_v12 : W2 (Proc.devRef .tc main_v12) = val_main_v12 (F := F) := by
    rw [← hW2]; stage; rfl
  have h2_v13 : W2 (Proc.devRef .tc main_v13) = val_main_v13 (F := F) := by
    rw [← hW2]; stage; rfl
  have h2_arg0 : W2 (Proc.devRef .tc main_arg0) = x0 := by
    rw [← hW2]; stage; exact h1_arg0
  have h2_v1 : W2 (Proc.devRef .tc main_v1) = val_main_v1 (F := F) x1 := by
    rw [← hW2]; stage; exact h1_v1
  have h2_v3 : W2 (Proc.devRef .tc main_v3) = val_main_v3 (F := F) x1 := by
    rw [← hW2]; stage; exact h1_v3
  have h2_v5 : W2 (Proc.devRef .tc main_v5) = val_main_v5 (F := F) x1 := by
    rw [← hW2]; stage; exact h1_v5
  have h2_v7 : W2 (Proc.devRef .tc main_v7) = val_main_v7 (F := F) x1 := by
    rw [← hW2]; stage; exact h1_v7
  clear hW2
  -- the next 10 operations
  rw [after_split 10]
  generalize hW3 : after (List.take 10 _) W2 = W3
  have h3_v18 : W3 (Proc.devRef .tc main_v18) = val_main_v18 (F := F) x1 := by
    rw [← hW3]; stage; simp only [h2_v1, h2_v12]; rfl
  have h3_v23 : W3 (Proc.devRef .tc main_v23) = val_main_v23 (F := F) x1 := by
    rw [← hW3]; stage; simp only [h2_v3, h2_v13]; rfl
  have h3_arg0 : W3 (Proc.devRef .tc main_arg0) = x0 := by
    rw [← hW3]; stage; exact h2_arg0
  have h3_v5 : W3 (Proc.devRef .tc main_v5) = val_main_v5 (F := F) x1 := by
    rw [← hW3]; stage; exact h2_v5
  have h3_v7 : W3 (Proc.devRef .tc main_v7) = val_main_v7 (F := F) x1 := by
    rw [← hW3]; stage; exact h2_v7
  have h3_v12 : W3 (Proc.devRef .tc main_v12) = val_main_v12 (F := F) := by
    rw [← hW3]; stage; exact h2_v12
  have h3_v13 : W3 (Proc.devRef .tc main_v13) = val_main_v13 (F := F) := by
    rw [← hW3]; stage; exact h2_v13
  clear hW3
  -- the next 11 operations
  rw [after_split 11]
  generalize hW4 : after (List.take 11 _) W3 = W4
  have h4_v34 : W4 (Proc.devRef .tc main_v34) = val_main_v34 (F := F) x1 := by
    rw [← hW4]; stage; simp only [h3_v12, h3_v5, h3_v13]; rfl
  have h4_arg0 : W4 (Proc.devRef .tc main_arg0) = x0 := by
    rw [← hW4]; stage; exact h3_arg0
  have h4_v7 : W4 (Proc.devRef .tc main_v7) = val_main_v7 (F := F) x1 := by
    rw [← hW4]; stage; exact h3_v7
  have h4_v18 : W4 (Proc.devRef .tc main_v18) = val_main_v18 (F := F) x1 := by
    rw [← hW4]; stage; exact h3_v18
  have h4_v23 : W4 (Proc.devRef .tc main_v23) = val_main_v23 (F := F) x1 := by
    rw [← hW4]; stage; exact h3_v23
  clear hW4
  -- the next 10 operations
  rw [after_split 10]
  generalize hW5 : after (List.take 10 _) W4 = W5
  have h5_v42 : W5 (Proc.devRef .tc main_v42) = val_main_v42 (F := F) x1 := by
    rw [← hW5]; stage; simp only [h4_v18, h4_v23, h4_v7]; rfl
  have h5_arg0 : W5 (Proc.devRef .tc main_arg0) = x0 := by
    rw [← hW5]; stage; exact h4_arg0
  have h5_v34 : W5 (Proc.devRef .tc main_v34) = val_main_v34 (F := F) x1 := by
    rw [← hW5]; stage; exact h4_v34
  clear hW5
  -- the next 4 operations
  rw [after_split 4]
  generalize hW6 : after (List.take 4 _) W5 = W6
  have h6_v43 : W6 (Proc.devRef .tc main_v43) = val_main_v43 (F := F) x1 := by
    rw [← hW6]; stage; simp only [h5_v34, h5_v42]; rfl
  have h6_arg0 : W6 (Proc.devRef .tc main_arg0) = x0 := by
    rw [← hW6]; stage; exact h5_arg0
  clear hW6
  -- the next 15 operations
  rw [after_split 15]
  generalize hW7 : after (List.take 15 _) W6 = W7
  have h7_v46 : W7 (Proc.devRef .tc main_v46) = val_main_v46 (F := F) := by
    rw [← hW7]; stage; rfl
  have h7_v50 : W7 (Proc.devRef .tc main_v50) = val_main_v50 (F := F) := by
    rw [← hW7]; stage; rfl
  have h7_v55 : W7 (Proc.devRef .tc main_v55) = val_main_v55 (F := F) := by
    rw [← hW7]; stage; rfl
  have h7_arg0 : W7 (Proc.devRef .tc main_arg0) = x0 := by
    rw [← hW7]; stage; exact h6_arg0
  have h7_v43 : W7 (Proc.devRef .tc main_v43) = val_main_v43 (F := F) x1 := by
    rw [← hW7]; stage; exact h6_v43
  clear hW7
  -- the next 7 operations
  rw [after_split 7]
  generalize hW8 : after (List.take 7 _) W7 = W8
  have h8_v60 : W8 (Proc.devRef .tc main_v60) = val_main_v60 (F := F) x1 := by
    rw [← hW8]; stage; simp only [h7_v43]; rfl
  have h8_arg0 : W8 (Proc.devRef .tc main_arg0) = x0 := by
    rw [← hW8]; stage; exact h7_arg0
  have h8_v46 : W8 (Proc.devRef .tc main_v46) = val_main_v46 (F := F) := by
    rw [← hW8]; stage; exact h7_v46
  have h8_v50 : W8 (Proc.devRef .tc main_v50) = val_main_v50 (F := F) := by
    rw [← hW8]; stage; exact h7_v50
  have h8_v55 : W8 (Proc.devRef .tc main_v55) = val_main_v55 (F := F) := by
    rw [← hW8]; stage; exact h7_v55
  clear hW8
  -- the next 2 operations
  rw [after_split 2]
  generalize hW9 : after (List.take 2 _) W8 = W9
  have h9_v61 : W9 (Proc.devRef .tc main_v61) = val_main_v61 (F := F) := by
    rw [← hW9]; stage; simp only [h8_v55]; rfl
  have h9_v62 : W9 (Proc.devRef .tc main_v62) = val_main_v62 (F := F) x1 := by
    rw [← hW9]; stage; simp only [h8_v60]; rfl
  have h9_arg0 : W9 (Proc.devRef .tc main_arg0) = x0 := by
    rw [← hW9]; stage; exact h8_arg0
  have h9_v46 : W9 (Proc.devRef .tc main_v46) = val_main_v46 (F := F) := by
    rw [← hW9]; stage; exact h8_v46
  have h9_v50 : W9 (Proc.devRef .tc main_v50) = val_main_v50 (F := F) := by
    rw [← hW9]; stage; exact h8_v50
  clear hW9
  -- the next 3 operations
  rw [after_split 3]
  generalize hW10 : after (List.take 3 _) W9 = W10
  have h10_v65 : W10 (Proc.devRef .tc main_v65) = val_main_v65 (F := F) x1 := by
    rw [← hW10]; stage; rw [h9_v50, h9_v61, h9_v62, h9_v46]; unfold val_main_v65 val_main_v64 val_main_v63; rfl
  have h10_arg0 : W10 (Proc.devRef .tc main_arg0) = x0 := by
    rw [← hW10]; stage; exact h9_arg0
  clear hW10
  -- the last two operations
  refine ⟨?_, ?_⟩
  · stage; simp only [h10_v65]; rfl
  · stage; simp only [h10_arg0]; rfl

end Cert.KernelIdeal.HostEval

end
-- ==== Proof.Spec.lean ====
/-
  The function both programs compute, and the integer facts its two readings need.

  Output element `(b, h, w, t, s, d)` looks up the index word `v` of cell `(32 h + w) · 4 + t` of batch `b`. If `v`
  names a patch (`v < 2560` as an unsigned word) the element is the token value of that patch: row `3 v + s`, column
  `d` of batch `b` of the token array. Otherwise it is zero. The index map holds only patch numbers and the word
  `-1` (all ones), for which the reference's signed test `v ≥ 0` and the kernel's one-hot comparison against the
  patch numbers agree.
-/
import Idealize.ShloMosaic.PureOps.Ideal
import Idealize.ShloMosaic.Lib.ValueIdx

namespace Cert.GatherSpec

open Idealize.ShloMosaic Idealize.ShloMosaic.ValueIdx

abbrev SOut : Shape := ⟨6, ![8, 32, 32, 4, 3, 768]⟩
abbrev STok : Shape := ⟨3, ![8, 7680, 768]⟩
abbrev SMap : Shape := ⟨2, ![8, 4096]⟩

/-- The coordinates of an output index `(b, h, w, t, s, d)`, each at its own extent. -/
abbrev bOf (i : SOut.Idx) : Fin 8 := i 0
abbrev hOf (i : SOut.Idx) : Fin 32 := i 1
abbrev wOf (i : SOut.Idx) : Fin 32 := i 2
abbrev tOf (i : SOut.Idx) : Fin 4 := i 3
abbrev sOf (i : SOut.Idx) : Fin 3 := i 4
abbrev dOf (i : SOut.Idx) : Fin 768 := i 5

/-- The flat cell of output index `(b, h, w, t, s, d)`: `(32 h + w) · 4 + t`. -/
abbrev cell (i : SOut.Idx) : Fin 4096 := ⟨((hOf i).val * 32 + (wOf i).val) * 4 + (tOf i).val, by
  have h1 := (hOf i).isLt
  have h2 := (wOf i).isLt
  have h3 := (tOf i).isLt
  omega⟩

/-- Where the index map is read for an output index: `(b, cell)`. -/
abbrev mapIdx (i : SOut.Idx) : SMap.Idx := ix2 (bOf i) (cell i)

/-- The gathered value at an output index, from the token array and the cell-to-patch index map. -/
noncomputable def gathered (x0 : STok.Idx → EReal) (idm : SMap.Idx → BitVec 32) (i : SOut.Idx) : EReal :=
  if h : (idm (mapIdx i)).toNat < 2560 then
    x0 (ix3 (bOf i) ⟨(idm (mapIdx i)).toNat * 3 + (sOf i).val, by
      have h4 := (sOf i).isLt
      omega⟩ (dOf i))
  else 0

/-! ## Signed readings of a small word -/

/-- A word below 2560 is its own signed value. -/
theorem toInt_small (v : BitVec 32) (h : v.toNat < 2560) : v.toInt = (v.toNat : ℤ) := by
  rw [BitVec.toInt_eq_toNat_cond]
  split
  · rfl
  · omega

/-- The word of all ones is negative: the reference's test `v ≥ 0` fails. -/
theorem sge_neg_one : IntOp.cmpi .sge (4294967295#32 : BitVec 32) 0#32 = 0#1 := by decide

/-- A word below 2560 passes the reference's test `v ≥ 0`. -/
theorem sge_small (v : BitVec 32) (h : v.toNat < 2560) : IntOp.cmpi .sge v 0#32 = 1#1 := by
  have hv := toInt_small v h
  unfold IntOp.cmpi
  have : (0#32 : BitVec 32).sle v = true := by
    rw [BitVec.sle_eq_decide]
    simp only [decide_eq_true_eq]
    rw [hv]
    simp
  simp [this]

/-- The reference's index arithmetic on a word below 2560 — `max(v, 0)`, then `+ 2560` if negative — returns the
    word, and its signed value is the patch number. -/
theorem norm_small (v : BitVec 32) (h : v.toNat < 2560) :
    (Scalar.select (IntOp.cmpi .slt (IntOp.maxsi v 0#32) 0#32) (IntOp.addi (IntOp.maxsi v 0#32) 2560#32)
      (IntOp.maxsi v 0#32)).toInt.toNat = v.toNat := by
  have hv := toInt_small v h
  have hm : IntOp.maxsi v 0#32 = v := by
    unfold IntOp.maxsi
    split
    · rfl
    · rename_i hs
      rw [BitVec.slt_eq_decide] at hs
      simp only [decide_eq_true_eq, not_lt] at hs
      rw [hv] at hs
      have h0 : v.toNat = 0 := by simpa using hs
      exact (BitVec.eq_of_toNat_eq (by simpa using h0)).symm
  rw [hm]
  have hlt : IntOp.cmpi .slt v 0#32 = 0#1 := by
    unfold IntOp.cmpi
    have : v.slt 0#32 = false := by
      rw [BitVec.slt_eq_decide]
      simp only [decide_eq_false_iff_not, not_lt]
      rw [hv]
      simp
    simp [this]
  rw [hlt]
  show v.toInt.toNat = v.toNat
  rw [hv]
  simp

end Cert.GatherSpec
-- ==== Proof.KernelValue.lean ====
/-
  The kernel's result buffer read at an index: the gathered value.

  The pipeline's output array is `[8, 4096, 2304]`: row `cell` of batch `b` is the token row (2304 wide: three
  vectors of 768) of the patch the cell's index word names. The host recasts it to `[8, 32, 32, 4, 3, 768]`, so
  element `(b, h, w, t, s, d)` is row `cell = (32 h + w) · 4 + t`, column `768 s + d`. The region's two operand
  arrays are recasts of the reference's index map and of the tokens as given, so the index word is the map's word
  at `(b, cell)` and the token value is row `3 n + s`, column `d` of batch `b`: the same row-major positions.
-/
import proofs.«139240_j5128190951572_1_alg».proof.Proof.KernelAcc
import proofs.«139240_j5128190951572_1_alg».proof.Proof.KernelHostEval
import proofs.«139240_j5128190951572_1_alg».proof.Proof.Spec

noncomputable section

open Idealize.ShloMosaic Idealize.ShloMosaic.TcCoe Idealize.SL.Sem Idealize.ShloMosaic.ValueIdx
open Cert.GatherSpec

namespace Cert.KernelIdeal.KValue

open Cert.KernelIdeal Cert.KernelIdeal.Gen Cert.KernelIdeal.Acc Cert.ReferenceIdeal.ReadP

variable (m : (ℓ : Loc nD τ sig) → Buf (Elt Ideal) ℓ)

/-- What the region finds in its operand arrays: the reference's index map and the given tokens, recast. -/
theorem inputs (c : Dev nD) :
    idw m c = shapeCast S8x1x4096 (val_main_v65 (F := Ideal) (m ((c.tc : Thread nD τ).loc main_arg1))) shapeCasts_S8x4096_S8x1x4096
      ∧ tok m c = shapeCast S8x2560x2304 (m ((c.tc : Thread nD τ).loc main_arg0)) shapeCasts_S8x7680x768_S8x2560x2304 :=
  HostEval.eval_inputs (F := Ideal) (fun b => m (c, b)) _ _ rfl rfl

/-- The row-major position of a six-axis output index. -/
theorem rowMajor_out (i : S8x32x32x4x3x768.Idx) :
    (S8x32x32x4x3x768.rowMajor i).val
      = (((((i 0).val * 32 + (i 1).val) * 32 + (i 2).val) * 4 + (i 3).val) * 3 + (i 4).val) * 768 + (i 5).val := by
  rw [Shape.rowMajor_val_succ, Shape.rowMajor_val_five]
  have hn : (⟨5, fun a : Fin 5 => (![8, 32, 32, 4, 3, 768] : Fin 6 → ℕ) a.succ⟩ : Shape).numel = 9437184 := by decide
  rw [hn]
  show (i 0).val * 9437184 + (((((i 1).val * 32 + (i 2).val) * 4 + (i 3).val) * 3 + (i 4).val) * 768 + (i 5).val) = _
  omega

/-- The six-axis recast of the output array reads row `cell`, column `768 s + d`. -/
theorem out_cast_apply (R : S8x4096x2304.Idx → EReal) (i : S8x32x32x4x3x768.Idx) :
    shapeCast S8x32x32x4x3x768 R shapeCasts_S8x4096x2304_S8x32x32x4x3x768 i
      = R (ix3 (bOf i) (cell i) ⟨(sOf i).val * 768 + (dOf i).val, by
          have h4 := (sOf i).isLt
          have h5 := (dOf i).isLt
          omega⟩) :=
  shapeCast_apply R _ i _ (by
    rw [Shape.rowMajor_val_three, rowMajor_out]
    show ((i 0).val * 4096 + (((i 1).val * 32 + (i 2).val) * 4 + (i 3).val)) * 2304 + ((i 4).val * 768 + (i 5).val) = _
    omega)

/-- The index-word array, a recast of the flat map `M`, reads `M` at `(b, cell)`. -/
theorem map_cast_apply (M : S8x4096.Idx → BitVec 32) (b : Fin 8) (q : Fin 4096) :
    shapeCast S8x1x4096 M shapeCasts_S8x4096_S8x1x4096 (ix3 b (0 : Fin 1) q) = M (ix2 b q) :=
  shapeCast_apply M _ _ _ (by
    rw [Shape.rowMajor_val_two, Shape.rowMajor_val_three]
    show b.val * 4096 + q.val = (b.val * 1 + 0) * 4096 + q.val
    omega)

/-- The token array, a recast of the tokens `X` as given, reads at `(b, n, 768 s + d)` row `3 n + s`, column `d`. -/
theorem tok_cast_apply (X : S8x7680x768.Idx → EReal) (b : Fin 8) (n : ℕ) (hn : n < 2560) (s : Fin 3) (d : Fin 768)
    (hcol : s.val * 768 + d.val < 2304) :
    shapeCast S8x2560x2304 X shapeCasts_S8x7680x768_S8x2560x2304 (ix3 b ⟨n, hn⟩ ⟨s.val * 768 + d.val, hcol⟩)
      = X (ix3 b ⟨n * 3 + s.val, by omega⟩ d) :=
  shapeCast_apply X _ _ _ (by
    rw [Shape.rowMajor_val_three, Shape.rowMajor_val_three]
    show (b.val * 7680 + (n * 3 + s.val)) * 768 + d.val = (b.val * 2560 + n) * 2304 + (s.val * 768 + d.val)
    omega)

/-- The kernel's result buffer: the output array recast to six axes. -/
abbrev out (c : Dev nD) : S8x32x32x4x3x768.Idx → EReal :=
  shapeCast S8x32x32x4x3x768 (result m c) shapeCasts_S8x4096x2304_S8x32x32x4x3x768

/-- The kernel's result at an output index is the gathered value of the given tokens and the reference's index map. -/
theorem kernel_apply (c : Dev nD) (i : S8x32x32x4x3x768.Idx) :
    out m c i
      = gathered (m ((c.tc : Thread nD τ).loc main_arg0))
          (val_main_v65 (F := Ideal) (m ((c.tc : Thread nD τ).loc main_arg1))) i := by
  obtain ⟨hw, ht⟩ := inputs m c
  show shapeCast S8x32x32x4x3x768 (result m c) shapeCasts_S8x4096x2304_S8x32x32x4x3x768 i = _
  rw [out_cast_apply]
  unfold gathered
  have hcol : (sOf i).val * 768 + (dOf i).val < 2304 := by
    have h4 := (sOf i).isLt
    have h5 := (dOf i).isLt
    omega
  show rowOf (tok m c) (bOf i) (idw m c (ix3 (bOf i) (0 : Fin 1) (cell i))).toNat
    (⟨(sOf i).val * 768 + (dOf i).val, hcol⟩ : Fin 2304) = _
  have ew : idw m c (ix3 (bOf i) (0 : Fin 1) (cell i))
      = val_main_v65 (F := Ideal) (m ((c.tc : Thread nD τ).loc main_arg1)) (mapIdx i) := by
    rw [hw]
    exact map_cast_apply _ (bOf i) (cell i)
  rw [ew]
  unfold rowOf
  by_cases hlt : (val_main_v65 (F := Ideal) (m ((c.tc : Thread nD τ).loc main_arg1)) (mapIdx i)).toNat < 2560
  · rw [dif_pos hlt, dif_pos hlt, ht]
    exact tok_cast_apply (m ((c.tc : Thread nD τ).loc main_arg0)) (bOf i) _ hlt (sOf i) (dOf i) hcol
  · rw [dif_neg hlt, dif_neg hlt]

end Cert.KernelIdeal.KValue

end
-- ==== Proof.RefEval.lean ====
/-
  The reference's ninety-nine host operations, evaluated a few at a time.

  The run leaves the result buffer at the fold of the operations' results over the launch contents. That fold is
  cut after operations 8, 14, 24, 35, 45, 49, 64, 71, 73, 77 and 90; at each cut only the values a later operation still
  reads are named — each is the stage function of the arguments (`val_main_vN`: the operation applied to its
  operands' stages) — and the buffers' contents are then forgotten, so that no step compares more than a dozen
  operations' worth of terms. A value is "computed" in the chunk that writes it (the chunk's operations applied to
  the named operands) and "carried" through a chunk that does not write it (single assignment: nothing is written
  twice).
-/
import proofs.«139240_j5128190951572_1_alg».proof.Proof.RefRunP
import proofs.«139240_j5128190951572_1_alg».proof.Proof.RefReadP
import Idealize.ShloMosaic.Lib.Pipeline.Frame

noncomputable section

namespace Cert.ReferenceIdeal.Eval

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a list is the fold over what is left after its first `n` operations, from the fold over those. -/
theorem after_split (n : ℕ) (l : List (HloOp τ sig (Elt F))) (V : Valuation τ sig (Elt F)) :
    after l V = after (l.drop n) (after (l.take n) V) := by
  rw [← StableHlo.after_append, List.take_append_drop]

/-- Spell the chunk's operations out and read each result buffer off them. -/
local macro "stage" : tactic =>
  `(tactic| (simp only [ops, List.take_succ_cons, List.take_zero, List.drop_succ_cons, List.drop_zero]; after_results_simp))

set_option maxRecDepth 16384 in
set_option maxHeartbeats 4000000 in
/-- The result buffer after all the operations, from any contents `W0` holding `x0` and `x1` at the arguments: the
    last stage function of `x0` and `x1`. -/
theorem eval_v80 (W0 : Valuation τ sig (Elt F)) (x0 : (⟨S8x7680x768, .f32⟩ : BufTy).Contents (Elt F))
    (x1 : (⟨S8x2560x4, .i32⟩ : BufTy).Contents (Elt F))
    (h0_arg0 : W0 (Proc.devRef .tc main_arg0) = x0) (h0_arg1 : W0 (Proc.devRef .tc main_arg1) = x1) :
    after (ops (F := F)) W0 (Proc.devRef .tc main_v80) = val_main_v80 (F := F) x0 x1 := by
  -- the next 8 operations
  rw [after_split 8]
  generalize hW1 : after (List.take 8 _) W0 = W1
  have h1_v1 : W1 (Proc.devRef .tc main_v1) = val_main_v1 (F := F) x1 := by
    rw [← hW1]; stage; simp only [h0_arg1]; rfl
  have h1_v3 : W1 (Proc.devRef .tc main_v3) = val_main_v3 (F := F) x1 := by
    rw [← hW1]; stage; simp only [h0_arg1]; rfl
  have h1_v5 : W1 (Proc.devRef .tc main_v5) = val_main_v5 (F := F) x1 := by
    rw [← hW1]; stage; simp only [h0_arg1]; rfl
  have h1_v7 : W1 (Proc.devRef .tc main_v7) = val_main_v7 (F := F) x1 := by
    rw [← hW1]; stage; simp only [h0_arg1]; rfl
  have h1_arg0 : W1 (Proc.devRef .tc main_arg0) = x0 := by
    rw [← hW1]; stage; exact h0_arg0
  clear hW1
  -- the next 6 operations
  rw [after_split 6]
  generalize hW2 : after (List.take 6 _) W1 = W2
  have h2_v12 : W2 (Proc.devRef .tc main_v12) = val_main_v12 (F := F) := by
    rw [← hW2]; stage; rfl
  have h2_v13 : W2 (Proc.devRef .tc main_v13) = val_main_v13 (F := F) := by
    rw [← hW2]; stage; rfl
  have h2_arg0 : W2 (Proc.devRef .tc main_arg0) = x0 := by
    rw [← hW2]; stage; exact h1_arg0
  have h2_v1 : W2 (Proc.devRef .tc main_v1) = val_main_v1 (F := F) x1 := by
    rw [← hW2]; stage; exact h1_v1
  have h2_v3 : W2 (Proc.devRef .tc main_v3) = val_main_v3 (F := F) x1 := by
    rw [← hW2]; stage; exact h1_v3
  have h2_v5 : W2 (Proc.devRef .tc main_v5) = val_main_v5 (F := F) x1 := by
    rw [← hW2]; stage; exact h1_v5
  have h2_v7 : W2 (Proc.devRef .tc main_v7) = val_main_v7 (F := F) x1 := by
    rw [← hW2]; stage; exact h1_v7
  clear hW2
  -- the next 10 operations
  rw [after_split 10]
  generalize hW3 : after (List.take 10 _) W2 = W3
  have h3_v18 : W3 (Proc.devRef .tc main_v18) = val_main_v18 (F := F) x1 := by
    rw [← hW3]; stage; simp only [h2_v1, h2_v12]; rfl
  have h3_v23 : W3 (Proc.devRef .tc main_v23) = val_main_v23 (F := F) x1 := by
    rw [← hW3]; stage; simp only [h2_v3, h2_v13]; rfl
  have h3_arg0 : W3 (Proc.devRef .tc main_arg0) = x0 := by
    rw [← hW3]; stage; exact h2_arg0
  have h3_v5 : W3 (Proc.devRef .tc main_v5) = val_main_v5 (F := F) x1 := by
    rw [← hW3]; stage; exact h2_v5
  have h3_v7 : W3 (Proc.devRef .tc main_v7) = val_main_v7 (F := F) x1 := by
    rw [← hW3]; stage; exact h2_v7
  have h3_v12 : W3 (Proc.devRef .tc main_v12) = val_main_v12 (F := F) := by
    rw [← hW3]; stage; exact h2_v12
  have h3_v13 : W3 (Proc.devRef .tc main_v13) = val_main_v13 (F := F) := by
    rw [← hW3]; stage; exact h2_v13
  clear hW3
  -- the next 11 operations
  rw [after_split 11]
  generalize hW4 : after (List.take 11 _) W3 = W4
  have h4_v34 : W4 (Proc.devRef .tc main_v34) = val_main_v34 (F := F) x1 := by
    rw [← hW4]; stage; simp only [h3_v12, h3_v5, h3_v13]; rfl
  have h4_arg0 : W4 (Proc.devRef .tc main_arg0) = x0 := by
    rw [← hW4]; stage; exact h3_arg0
  have h4_v7 : W4 (Proc.devRef .tc main_v7) = val_main_v7 (F := F) x1 := by
    rw [← hW4]; stage; exact h3_v7
  have h4_v18 : W4 (Proc.devRef .tc main_v18) = val_main_v18 (F := F) x1 := by
    rw [← hW4]; stage; exact h3_v18
  have h4_v23 : W4 (Proc.devRef .tc main_v23) = val_main_v23 (F := F) x1 := by
    rw [← hW4]; stage; exact h3_v23
  clear hW4
  -- the next 10 operations
  rw [after_split 10]
  generalize hW5 : after (List.take 10 _) W4 = W5
  have h5_v42 : W5 (Proc.devRef .tc main_v42) = val_main_v42 (F := F) x1 := by
    rw [← hW5]; stage; simp only [h4_v18, h4_v23, h4_v7]; rfl
  have h5_arg0 : W5 (Proc.devRef .tc main_arg0) = x0 := by
    rw [← hW5]; stage; exact h4_arg0
  have h5_v34 : W5 (Proc.devRef .tc main_v34) = val_main_v34 (F := F) x1 := by
    rw [← hW5]; stage; exact h4_v34
  clear hW5
  -- the next 4 operations
  rw [after_split 4]
  generalize hW6 : after (List.take 4 _) W5 = W6
  have h6_v43 : W6 (Proc.devRef .tc main_v43) = val_main_v43 (F := F) x1 := by
    rw [← hW6]; stage; simp only [h5_v34, h5_v42]; rfl
  have h6_arg0 : W6 (Proc.devRef .tc main_arg0) = x0 := by
    rw [← hW6]; stage; exact h5_arg0
  clear hW6
  -- the next 15 operations
  rw [after_split 15]
  generalize hW7 : after (List.take 15 _) W6 = W7
  have h7_v46 : W7 (Proc.devRef .tc main_v46) = val_main_v46 (F := F) := by
    rw [← hW7]; stage; rfl
  have h7_v50 : W7 (Proc.devRef .tc main_v50) = val_main_v50 (F := F) := by
    rw [← hW7]; stage; rfl
  have h7_v55 : W7 (Proc.devRef .tc main_v55) = val_main_v55 (F := F) := by
    rw [← hW7]; stage; rfl
  have h7_arg0 : W7 (Proc.devRef .tc main_arg0) = x0 := by
    rw [← hW7]; stage; exact h6_arg0
  have h7_v43 : W7 (Proc.devRef .tc main_v43) = val_main_v43 (F := F) x1 := by
    rw [← hW7]; stage; exact h6_v43
  clear hW7
  -- the next 7 operations
  rw [after_split 7]
  generalize hW8 : after (List.take 7 _) W7 = W8
  have h8_v60 : W8 (Proc.devRef .tc main_v60) = val_main_v60 (F := F) x1 := by
    rw [← hW8]; stage; simp only [h7_v43]; rfl
  have h8_arg0 : W8 (Proc.devRef .tc main_arg0) = x0 := by
    rw [← hW8]; stage; exact h7_arg0
  have h8_v46 : W8 (Proc.devRef .tc main_v46) = val_main_v46 (F := F) := by
    rw [← hW8]; stage; exact h7_v46
  have h8_v50 : W8 (Proc.devRef .tc main_v50) = val_main_v50 (F := F) := by
    rw [← hW8]; stage; exact h7_v50
  have h8_v55 : W8 (Proc.devRef .tc main_v55) = val_main_v55 (F := F) := by
    rw [← hW8]; stage; exact h7_v55
  clear hW8
  -- the next 2 operations
  rw [after_split 2]
  generalize hW9 : after (List.take 2 _) W8 = W9
  have h9_v61 : W9 (Proc.devRef .tc main_v61) = val_main_v61 (F := F) := by
    rw [← hW9]; stage; simp only [h8_v55]; rfl
  have h9_v62 : W9 (Proc.devRef .tc main_v62) = val_main_v62 (F := F) x1 := by
    rw [← hW9]; stage; simp only [h8_v60]; rfl
  have h9_arg0 : W9 (Proc.devRef .tc main_arg0) = x0 := by
    rw [← hW9]; stage; exact h8_arg0
  have h9_v46 : W9 (Proc.devRef .tc main_v46) = val_main_v46 (F := F) := by
    rw [← hW9]; stage; exact h8_v46
  have h9_v50 : W9 (Proc.devRef .tc main_v50) = val_main_v50 (F := F) := by
    rw [← hW9]; stage; exact h8_v50
  clear hW9
  -- the next 4 operations
  rw [after_split 4]
  generalize hW10 : after (List.take 4 _) W9 = W10
  have h10_v66 : W10 (Proc.devRef .tc main_v66) = val_main_v66 (F := F) x1 := by
    rw [← hW10]; stage; rw [h9_v50, h9_v61, h9_v62, h9_v46]; unfold val_main_v66 val_main_v65 val_main_v64 val_main_v63; rfl
  have h10_arg0 : W10 (Proc.devRef .tc main_arg0) = x0 := by
    rw [← hW10]; stage; exact h9_arg0
  clear hW10
  -- the next 13 operations
  rw [after_split 13]
  generalize hW11 : after (List.take 13 _) W10 = W11
  have h11_v76 : W11 (Proc.devRef .tc main_v76) = val_main_v76 (F := F) x0 x1 := by
    rw [← hW11]; stage; simp only [h10_arg0, h10_v66]; rfl
  have h11_v66 : W11 (Proc.devRef .tc main_v66) = val_main_v66 (F := F) x1 := by
    rw [← hW11]; stage; exact h10_v66
  clear hW11
  -- the last nine operations
  stage
  simp only [h11_v66, h11_v76]
  unfold val_main_v80 val_main_call1_v0 val_main_call1_v2 val_main_call1_v1 val_main_cst val_main_v79 val_main_v78
    val_main_v77 val_main_c_10
  simp only [TRef.toBuf, TRef.ofBuf, cast_eq]

end Cert.ReferenceIdeal.Eval

end
-- ==== Proof.LibScatter.lean ====
/-
  A scatter that overwrites (`x.at[idx].set(upd)`: the body returns the update) leaves, at every index of its
  result, either the operand's element there or one of the updates' elements — whatever the scatter indices are,
  in range or not, repeated or not.
-/
import Idealize.ShloMosaic.PureOps.ShapeOps

namespace Idealize.ShloMosaic

/-- A property kept by every step of a left fold holds of the fold. -/
theorem foldl_invariant {β γ : Type*} (P : β → Prop) (step : β → γ → β) (hstep : ∀ r n, P r → P (step r n)) :
    ∀ (l : List γ) (r : β), P r → P (l.foldl step r)
  | [], _, h => h
  | n :: l, r, h => foldl_invariant P step hstep l (step r n) (hstep r n h)

/-- Every element of an overwriting scatter's result is the operand's element at that index or some update's
    element. -/
theorem Host.scatter_set_mem {α : Type} {s si u : Shape} {w : ℕ} (d : ScatterDims s si u) (x : s.Idx → α)
    (idx : IVec si w) (upd : u.Idx → α) (i : s.Idx) :
    Host.scatter d (fun _ b => b) x idx upd i = x i ∨ ∃ j, Host.scatter d (fun _ b => b) x idx upd i = upd j := by
  unfold Host.scatter
  refine foldl_invariant (fun r : s.Idx → α => ∀ i, r i = x i ∨ ∃ j, r i = upd j) _ ?_ _ x (fun _ => Or.inl rfl) i
  intro r n h i'
  dsimp only
  generalize d.resultIdx? (u.rowMajor.symm n) idx = o
  cases o with
  | none => exact h i'
  | some i0 =>
    dsimp only
    by_cases hi : i' = i0
    · exact Or.inr ⟨_, if_pos hi⟩
    · rw [if_neg hi]; exact h i'

end Idealize.ShloMosaic
-- ==== Proof.RefValue.lean ====
/-
  The reference's result read at an index.

  Its last stage is `select (idmap ≥ 0) (gather tokens (normalised idmap)) 0`. At output index `(b, h, w, t, s, d)` the
  index map is read at cell `(32 h + w) · 4 + t` of batch `b`; the gather reads the tokens, recast to
  `[8, 2560, 3, 768]`, at `(b, n, s, d)` with `n` the normalised index word clamped into `[0, 2559]`, which is
  row `3 n + s`, column `d` of batch `b` of the token array as given. The index map is the result of an overwriting
  scatter of the patch numbers `0 … 2559` into an array of `-1`, so each of its words is `-1` or a patch number; on
  those words the signed test, the normalisation and the clamp do nothing a plain unsigned lookup would not do.
-/
import proofs.«139240_j5128190951572_1_alg».proof.Proof.RefReadP
import proofs.«139240_j5128190951572_1_alg».proof.Proof.Spec
import proofs.«139240_j5128190951572_1_alg».proof.Proof.LibScatter
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx Cert.GatherSpec

local notation "D" => gather_S8x2560x3x768_S8x32x32x4x1_S8x32x32x4x3x768_45_1_0_0_1_4_113768

/-! ## The gather read at an index -/

theorem hb0 : (0 : Fin 4) ∈ GatherDims.operandBatchingDims D := by decide

theorem gather_apply {α : Type} (x : S8x2560x3x768.Idx → α) (idx : IVec S8x32x32x4x1 32) (i : S8x32x32x4x3x768.Idx)
    (n : ℕ) (hn : n < 2560)
    (h : min (idx (ix5 (bOf i) (hOf i) (wOf i) (tOf i) (0 : Fin 1))).toInt.toNat 2559 = n) :
    Host.gather D x idx i = x (ix4 (bOf i) ⟨n, hn⟩ (sOf i) (dOf i)) := by
  subst h
  unfold Host.gather
  refine congrArg x (funext fun a => Fin.ext ?_)
  show GatherDims.start D i idx a + GatherDims.batchCoord D i a + GatherDims.offCoord D i a = _
  match a with
  | ⟨0, _⟩ =>
    show GatherDims.start D i idx 0 + GatherDims.batchCoord D i 0 + GatherDims.offCoord D i 0 = (i 0).val
    rw [GatherDims.start_batching D i idx 0 hb0, GatherDims.offCoord_eq_zero D i 0 (by decide)]
    unfold GatherDims.batchCoord
    rw [dif_pos hb0]
    unfold GatherDims.siCoord
    simp only [Fin.coe_cast, Nat.zero_add, Nat.add_zero]
    have key : ∀ q : Fin 6, q = 0 → (i q).val = (i 0).val := by rintro q rfl; rfl
    exact key _ (by decide)
  | ⟨1, _⟩ =>
    show GatherDims.start D i idx 1 + GatherDims.batchCoord D i 1 + GatherDims.offCoord D i 1
      = min (idx (ix5 (bOf i) (hOf i) (wOf i) (tOf i) (0 : Fin 1))).toInt.toNat 2559
    rw [GatherDims.batchCoord_eq_zero D i 1 (by decide), GatherDims.offCoord_eq_zero D i 1 (by decide)]
    unfold GatherDims.start
    rw [dif_pos (by decide)]
    have hsi : GatherDims.siIdx D i ⟨List.idxOf (1 : Fin 4) (GatherDims.startIndexMap D), by decide⟩
        = ix5 (bOf i) (hOf i) (wOf i) (tOf i) (0 : Fin 1) := by
      funext b
      apply Fin.ext
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    show GatherDims.start D i idx 2 + GatherDims.batchCoord D i 2 + GatherDims.offCoord D i 2 = (i 4).val
    have hs : GatherDims.start D i idx 2 = 0 := by unfold GatherDims.start; rw [dif_neg (by decide)]
    rw [hs, GatherDims.batchCoord_eq_zero D i 2 (by decide)]
    unfold GatherDims.offCoord
    rw [dif_pos (by decide)]
    simp only [Nat.zero_add]
    have key : ∀ q : Fin 6, q = 4 → (i q).val = (i 4).val := by rintro q rfl; rfl
    exact key _ (by decide)
  | ⟨3, _⟩ =>
    show GatherDims.start D i idx 3 + GatherDims.batchCoord D i 3 + GatherDims.offCoord D i 3 = (i 5).val
    have hs : GatherDims.start D i idx 3 = 0 := by unfold GatherDims.start; rw [dif_neg (by decide)]
    rw [hs, GatherDims.batchCoord_eq_zero D i 3 (by decide)]
    unfold GatherDims.offCoord
    rw [dif_pos (by decide)]
    simp only [Nat.zero_add]
    have key : ∀ q : Fin 6, q = 5 → (i q).val = (i 5).val := by rintro q rfl; rfl
    exact key _ (by decide)

/-! ## The index map holds patch numbers and `-1` only -/

/-- Every word of the index map is the filler `-1` or one of the scattered patch numbers `0 … 2559`. -/
theorem idmap_range (x1 : (⟨S8x2560x4, .i32⟩ : BufTy).Contents (Elt Ideal)) (j : S8x4096.Idx) :
    val_main_v65 (F := Ideal) x1 j = 4294967295#32 ∨ (val_main_v65 (F := Ideal) x1 j).toNat < 2560 := by
  rw [val_main_v65_apply]
  unfold val_main_v64
  rcases Host.scatter_set_mem scatter_S8x4097_S8x2560x4x2_S8x2560x4_n_01_01_3 (val_main_v50 (F := Ideal))
    (val_main_v63 (F := Ideal) x1) (val_main_v46 (F := Ideal)) (idx_main_v65 j) with h | ⟨k, h⟩
  · left
    rw [h, val_main_v50_apply, val_main_c_2_apply]
  · right
    rw [h, val_main_v46_apply, val_main_v45_apply, val_main_v44_apply]
    have hk : ((idx_main_v45 (idx_main_v46 k)) 0).val < 2560 := ((idx_main_v45 (idx_main_v46 k)) 0).isLt
    rw [BitVec.toNat_ofNat]
    omega

/-! ## The stages at an output index -/

/-- The index map recast to `[8, 32, 32, 4]` reads the flat map at cell `(32 h + w) · 4 + t`. -/
theorem flat_cell (a0 : Fin 8) (a1 a2 : Fin 32) (a3 : Fin 4) :
    idx_main_v66 (ix4 a0 a1 a2 a3) = ix2 a0 ⟨(a1.val * 32 + a2.val) * 4 + a3.val, by omega⟩ := by
  funext a
  apply Fin.ext
  match a with
  | ⟨0, _⟩ => show (((a0.val * 32 + a1.val) * 32 + a2.val) * 4 + a3.val) / 4096 = a0.val; omega
  | ⟨1, _⟩ => show (((a0.val * 32 + a1.val) * 32 + a2.val) * 4 + a3.val) % 4096 = (a1.val * 32 + a2.val) * 4 + a3.val; omega

/-- The mask of the final select: the signed test on the cell's index word. -/
theorem mask_at (x1 : (⟨S8x2560x4, .i32⟩ : BufTy).Contents (Elt Ideal)) (i : S8x32x32x4x3x768.Idx) :
    val_main_call1_v0 (F := Ideal) x1 i = IntOp.cmpi .sge (val_main_v65 (F := Ideal) x1 (mapIdx i)) 0#32 := by
  rw [val_main_call1_v0_apply, val_main_v79_apply, val_main_v78_apply, val_main_v77_apply, val_main_c_10_apply,
    val_main_v66_apply]
  have e : idx_main_v79 (idx_main_call1_v0 i) = ix4 (bOf i) (hOf i) (wOf i) (tOf i) := by
    funext a
    match a with
    | ⟨0, _⟩ => rfl
    | ⟨1, _⟩ => rfl
    | ⟨2, _⟩ => rfl
    | ⟨3, _⟩ => rfl
  rw [e, flat_cell]

/-- The other branch of the final select is the zero constant. -/
theorem zero_at (i : S8x32x32x4x3x768.Idx) : val_main_call1_v2 (F := Ideal) i = 0 := by
  rw [val_main_call1_v2_apply, val_main_call1_v1_apply, val_main_cst_apply]
  exact Ideal.ofBits_zero_f32

/-- The gather's start index at an output index: the normalised index word of the cell. -/
theorem start_at (x1 : (⟨S8x2560x4, .i32⟩ : BufTy).Contents (Elt Ideal)) (i : S8x32x32x4x3x768.Idx) :
    val_main_v75 (F := Ideal) x1 (ix5 (bOf i) (hOf i) (wOf i) (tOf i) (0 : Fin 1))
      = Scalar.select (IntOp.cmpi .slt (IntOp.maxsi (val_main_v65 (F := Ideal) x1 (mapIdx i)) 0#32) 0#32)
          (IntOp.addi (IntOp.maxsi (val_main_v65 (F := Ideal) x1 (mapIdx i)) 0#32) 2560#32)
          (IntOp.maxsi (val_main_v65 (F := Ideal) x1 (mapIdx i)) 0#32) := by
  rw [val_main_v75_apply, val_main_v74_apply, val_main_v71_apply, val_main_v73_apply, val_main_v69_apply,
    val_main_v70_apply, val_main_c_8_apply, val_main_v72_apply, val_main_c_9_apply, val_main_v68_apply,
    val_main_c_7_apply, val_main_v66_apply]
  have e : idx_main_v75 (ix5 (bOf i) (hOf i) (wOf i) (tOf i) (0 : Fin 1)) = ix4 (bOf i) (hOf i) (wOf i) (tOf i) := by
    funext a
    match a with
    | ⟨0, _⟩ => rfl
    | ⟨1, _⟩ => rfl
    | ⟨2, _⟩ => rfl
    | ⟨3, _⟩ => rfl
  rw [e, flat_cell]

/-- The tokens recast to `[8, 2560, 3, 768]` read, at `(b, n, s, d)`, row `3 n + s`, column `d` of batch `b`. -/
theorem tokens_at (x0 : (⟨S8x7680x768, .f32⟩ : BufTy).Contents (Elt Ideal)) (b : Fin 8) (n : ℕ) (hn : n < 2560) (s : Fin 3)
    (d : Fin 768) :
    val_main_v67 (F := Ideal) x0 (ix4 b ⟨n, hn⟩ s d) = x0 (ix3 b ⟨n * 3 + s.val, by omega⟩ d) := by
  rw [val_main_v67_apply]
  congr 1
  funext a
  apply Fin.ext
  match a with
  | ⟨0, _⟩ => show (((b.val * 2560 + n) * 3 + s.val) * 768 + d.val) / 5898240 = b.val; omega
  | ⟨1, _⟩ => show (((b.val * 2560 + n) * 3 + s.val) * 768 + d.val) / 768 % 7680 = n * 3 + s.val; omega
  | ⟨2, _⟩ => show (((b.val * 2560 + n) * 3 + s.val) * 768 + d.val) % 768 = d.val; omega

/-! ## The reference's result is the gathered value -/

theorem ref_apply (x0 : (⟨S8x7680x768, .f32⟩ : BufTy).Contents (Elt Ideal))
    (x1 : (⟨S8x2560x4, .i32⟩ : BufTy).Contents (Elt Ideal)) (i : S8x32x32x4x3x768.Idx) :
    val_main_v80 (F := Ideal) x0 x1 i = gathered x0 (val_main_v65 (F := Ideal) x1) i := by
  rw [val_main_v80_apply, mask_at, zero_at]
  unfold gathered
  rcases idmap_range x1 (mapIdx i) with h | h
  · have hn : ¬ (val_main_v65 (F := Ideal) x1 (mapIdx i)).toNat < 2560 := by rw [h]; decide
    rw [dif_neg hn, h, sge_neg_one]
    exact select_zero _ _
  · rw [dif_pos h, sge_small _ h]
    refine (select_one _ _).trans ?_
    unfold val_main_v76
    have hs : min (val_main_v75 (F := Ideal) x1 (ix5 (bOf i) (hOf i) (wOf i) (tOf i) (0 : Fin 1))).toInt.toNat 2559
        = (val_main_v65 (F := Ideal) x1 (mapIdx i)).toNat := by
      rw [start_at, norm_small _ h]
      omega
    refine (gather_apply (val_main_v67 (F := Ideal) x0) (val_main_v75 (F := Ideal) x1) i _ h hs).trans ?_
    exact tokens_at x0 (bOf i) _ h (sOf i) (dOf i)

end Cert.ReferenceIdeal.RefValue

end
-- ==== Proof.lean ====
/-
  The kernel scatters variable-size patch tokens back to a spatial grid: output cell `(b, h, w, t)` receives the
  token row (three vectors of 768) of the patch that covers it, and zero if no patch does. Both programs first
  build the same cell-to-patch index map from the positions (one overwriting scatter of the patch numbers into an
  array of `-1`).

  The reference then gathers: it clamps the index word to a patch number, reads that patch's row, and selects zero
  where the word is negative.

  The kernel multiplies instead: for a tile of 1024 cells and a block of 512 patches it forms the one-hot mask
  "cell's index word = patch number" and adds `mask · tokens` to an accumulator, over the five blocks of patches.
  On the extended reals a masked sum with one hot entry is that entry's row (`1 · x = x`, `0 · x = 0` for infinite
  `x` too, so no finiteness is needed), and with no hot entry it is zero; since the map's words are patch numbers or
  `-1`, this is exactly the reference's clamp-and-select. The claim's three frames are the generated ones (the
  reference's from its run); the idealization rewrote nothing.
-/
import proofs.«139240_j5128190951572_1_alg».proof.Defs
import proofs.«139240_j5128190951572_1_alg».proof.Proof.Gen.Kernel
import proofs.«139240_j5128190951572_1_alg».proof.Proof.Gen.Kernel.Skeleton
import proofs.«139240_j5128190951572_1_alg».proof.Proof.Gen.Kernel.Launch
import proofs.«139240_j5128190951572_1_alg».proof.Proof.Gen.Kernel.Points
import proofs.«139240_j5128190951572_1_alg».proof.Proof.Gen.Kernel.Frame
import proofs.«139240_j5128190951572_1_alg».proof.Proof.Gen.KernelIdeal
import proofs.«139240_j5128190951572_1_alg».proof.Proof.Gen.KernelIdeal.Skeleton
import proofs.«139240_j5128190951572_1_alg».proof.Proof.Gen.KernelIdeal.Launch
import proofs.«139240_j5128190951572_1_alg».proof.Proof.Gen.KernelIdeal.Points
import proofs.«139240_j5128190951572_1_alg».proof.Proof.Gen.KernelIdeal.Frame
import proofs.«139240_j5128190951572_1_alg».proof.Proof.Gen.ReferenceIdeal
import proofs.«139240_j5128190951572_1_alg».proof.Proof.Gen.Pre_finite_inputs
import proofs.«139240_j5128190951572_1_alg».proof.Proof.KernelValue
import proofs.«139240_j5128190951572_1_alg».proof.Proof.RefEval
import proofs.«139240_j5128190951572_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both result buffers end at the gathered value of the tokens and the index map of the positions, element by
    element: the kernel's by its accumulated one-hot products, the reference's by its clamped gather and select. -/
theorem algebraic : Cert.algebraic_KernelIdeal_ReferenceIdeal := by
  intro m ρ m' ρ' _ hagree
  refine ⟨fun c => Cert.KernelIdeal.KValue.out m c, Cert.KernelIdeal.Acc.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Eval.eval_v80 (F := Ideal) (StableHlo.launchContents m' c)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) rfl rfl]
  funext i
  rw [Cert.ReferenceIdeal.RefValue.ref_apply]
  refine Eq.trans ?_ (Cert.KernelIdeal.KValue.kernel_apply m c i).symm
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
